-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x4096 : Shape := ⟨2, ![4, 4096]⟩
abbrev S4096x1024 : Shape := ⟨2, ![4096, 1024]⟩
abbrev S2x1024 : Shape := ⟨2, ![2, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S1024 : S_.BroadcastsInDim S1024 (![] : Fin 0 → Fin S1024.rank)
  reducesTo_S1024_S_d0 : S1024.ReducesTo [0] S_
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_arg1 : IVec S4x4096 32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_c_8 : IVec S_ 32 := constantI S_ 32 0#32
  let main_v24 : IVec S4x4096 32 := broadcastInDim S4x4096 ![] bcast_S_S4x4096 main_c_8
  let main_v25 : IVec S4x4096 1 := cmpi .sge main_arg1 main_v24
  let main_c_9 : IVec S_ 1 := constantI S_ 1 1#1
  let main_v26 : IVec S_ 1 := (fun x v => Host.reduce IntOp.andi x v reducesTo_S4x4096_S_d0_1 h_S_) main_v25 main_c_9
  let main_v27 : IVec S_ 1 := andi main_v23 main_v26
  let main_c_10 : IVec S_ 32 := constantI S_ 32 2#32
  let main_v28 : IVec S4x4096 32 := broadcastInDim S4x4096 ![] bcast_S_S4x4096 main_c_10
  let main_v29 : IVec S4x4096 1 := cmpi .slt main_arg1 main_v28
  let main_c_11 : IVec S_ 1 := constantI S_ 1 1#1
  let main_v30 : IVec S_ 1 := (fun x v => Host.reduce IntOp.andi x v reducesTo_S4x4096_S_d0_1 h_S_) main_v29 main_c_11
  let main_v31 : IVec S_ 1 := andi main_v27 main_v30
  main_v31

def fn {F : FTy → Type} [FloatOps F] (main_arg0 : FVec F S4x4096x1024 .f32) (main_arg1 : IVec S4x4096 32) (main_arg2 : FVec F S4096x1024 .f32) (main_arg3 : FVec F S2x1024 .f32) (main_arg4 : FVec F S1024 .f32) (main_arg5 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_arg5 main_v13 main_v16
-- ==== Kernel.lean ====
abbrev S4x4096x1024 : Shape := ⟨3, ![4, 4096, 1024]⟩
abbrev S4x4096 : Shape := ⟨2, ![4, 4096]⟩
abbrev S4096x1024 : Shape := ⟨2, ![4096, 1024]⟩
abbrev S2x1024 : Shape := ⟨2, ![2, 1024]⟩
abbrev S1024 : Shape := ⟨1, ![1024]⟩
abbrev S4x4096x1 : Shape := ⟨3, ![4, 4096, 1]⟩
abbrev S1x1024 : Shape := ⟨2, ![1, 1024]⟩
abbrev S4x512x1 : Shape := ⟨3, ![4, 512, 1]⟩
abbrev S4x512x1024 : Shape := ⟨3, ![4, 512, 1024]⟩
abbrev S512x1024 : Shape := ⟨2, ![512, 1024]⟩
abbrev S1x1x1024 : Shape := ⟨3, ![1, 1, 1024]⟩
abbrev S1x512x1024 : Shape := ⟨3, ![1, 512, 1024]⟩
abbrev S4x512 : Shape := ⟨2, ![4, 512]⟩

abbrev nBuf : Space → Nat
  | .hbm => 10
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S4096x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S4x4096x1, .i32⟩
  | .hbm, ⟨7, _⟩ => ⟨S1x1024, .f32⟩
  | .hbm, ⟨8, _⟩ => ⟨S1x1024, .f32⟩
  | .hbm, ⟨9, _⟩ => ⟨S4x4096x1024, .f32⟩
  | .local _ .vmem, ⟨0, _⟩ => ⟨S4x512x1, .i32⟩
  | .local _ .vmem, ⟨1, _⟩ => ⟨S4x512x1, .i32⟩
  | .local _ .vmem, ⟨2, _⟩ => ⟨S4x512x1024, .f32⟩
  | .local _ .vmem, ⟨3, _⟩ => ⟨S4x512x1024, .f32⟩
  | .local _ .vmem, ⟨4, _⟩ => ⟨S512x1024, .f32⟩
  | .local _ .vmem, ⟨5, _⟩ => ⟨S512x1024, .f32⟩
  | .local _ .vmem, ⟨6, _⟩ => ⟨S2x1024, .f32⟩
  | .local _ .vmem, ⟨7, _⟩ => ⟨S1x1024, .f32⟩
  | .local _ .vmem, ⟨8, _⟩ => ⟨S1x1024, .f32⟩
  | .local _ .vmem, ⟨9, _⟩ => ⟨S4x512x1024, .f32⟩
  | .local _ .vmem, ⟨10, _⟩ => ⟨S4x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x4096_S4x4096x1 : S4x4096.ShapeCasts S4x4096x1
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S2x1024_S1x1024_0_0 : ∀ a, (![0, 0] : Fin 2 → Nat) a + S1x1024.size a ≤ S2x1024.size a
  h_S1x1024 : 0 < S1x1024.numel
  shapeCasts_S1x1024_S1024 : S1x1024.ShapeCasts S1024
  broadcasts_S1x1024_S512x1024 : S1x1024.Broadcasts S512x1024
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  inb_S2x1024_S1x1024_1_0 : ∀ a, (![1, 0] : Fin 2 → Nat) a + S1x1024.size a ≤ S2x1024.size a
  shapeCasts_S1024_S1x1x1024 : S1024.ShapeCasts S1x1x1024
  inb_S4x512x1024_S4x512x1024_0_0_0 : ∀ a, (![0, 0, 0] : Fin 3 → Nat) a + S4x512x1024.size a ≤ S4x512x1024.size a
  h_S4x512x1024 : 0 < S4x512x1024.numel
  shapeCasts_S512x1024_S1x512x1024 : S512x1024.ShapeCasts S1x512x1024
  broadcasts_S1x512x1024_S4x512x1024 : S1x512x1024.Broadcasts S4x512x1024
  broadcasts_S4x512x1_S4x512x1024 : S4x512x1.Broadcasts S4x512x1024
  broadcasts_S1x1x1024_S4x512x1024 : S1x1x1024.Broadcasts S4x512x1024
  reduces_S4x512x1024_S4x512 : S4x512x1024.Reduces [2] S4x512
  shapeCasts_S4x512_S4x512x1 : S4x512.ShapeCasts S4x512x1
  inb_S1x1024_S1x1024_0_0 : ∀ a, (![0, 0] : Fin 2 → Nat) a + S1x1024.size a ≤ S1x1024.size a
  shapeCasts_S1x1024_S1x1024 : S1x1024.ShapeCasts S1x1024
  shapeCasts_S1x1024_S1x1x1024 : S1x1024.ShapeCasts S1x1x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1.size a ≤ S4x4096x1.size a
  hwx0_0 : ∀ i : grid0.Coords, EltTy.bits .i32 = 32 ∨ (Rect.block (s := S4x4096x1) S4x512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x1024.size a ≤ S4x4096x1024.size a
  hwx0_1 : ∀ i : grid0.Coords, EltTy.bits .f32 = 32 ∨ (Rect.block (s := S4x4096x1024) S4x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x1024.size a ≤ S2x1024.size a
  hwx0_3 : ∀ i : grid0.Coords, EltTy.bits .f32 = 32 ∨ (Rect.block (s := S2x1024) S2x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x512x1024.size a ≤ S4x4096x1024.size a
  hwx0_6 : ∀ i : grid0.Coords, EltTy.bits .f32 = 32 ∨ (Rect.block (s := S4x4096x1024) S4x512x1024.size (cc0_transform_6 i) (hinb0_6 i)).WholeWords (EltTy.packing .f32)

variable [Facts₀]

abbrev win0_0 : Pipeline.Window sig grid0 :=
  Pipeline.Window.ofSpec (Memref.whole main_v0) S4x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S4x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4x4096 : Shape := ⟨2, ![4, 4096]⟩
abbrev S4096x1024 : Shape := ⟨2, ![4096, 1024]⟩
abbrev S2x1024 : Shape := ⟨2, ![2, 1024]⟩
abbrev S1024 : Shape := ⟨1, ![1024]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x4096x1024 : Shape := ⟨3, ![1, 4096, 1024]⟩
abbrev S4x4096x1 : Shape := ⟨3, ![4, 4096, 1]⟩
abbrev S1x1x1 : Shape := ⟨3, ![1, 1, 1]⟩
abbrev S1x1x1024 : Shape := ⟨3, ![1, 1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S4096x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S1, .i32⟩
  | .hbm, ⟨16, _⟩ => ⟨S_, .i32⟩
  | .hbm, ⟨17, _⟩ => ⟨S4096x1, .i32⟩
  | .hbm, ⟨18, _⟩ => ⟨S4096x1, .i1⟩
  | .hbm, ⟨19, _⟩ => ⟨S1x1, .i32⟩
  | .hbm, ⟨20, _⟩ => ⟨S4096x1, .i32⟩
  | .hbm, ⟨21, _⟩ => ⟨S4096x1, .i1⟩
  | .hbm, ⟨22, _⟩ => ⟨S4096x1, .i1⟩
  | .hbm, ⟨23, _⟩ => ⟨S_, .i1⟩
  | .hbm, ⟨24, _⟩ => ⟨S4096, .i1⟩
  | .hbm, ⟨25, _⟩ => ⟨S4096x1024, .f32⟩
  | .hbm, ⟨26, _⟩ => ⟨S4096x1024, .i1⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S1x4096x1024, .f32⟩
  | .hbm, ⟨31, _⟩ => ⟨S_, .i32⟩
  | .hbm, ⟨32, _⟩ => ⟨S4x4096, .i32⟩
  | .hbm, ⟨33, _⟩ => ⟨S4x4096, .i1⟩
  | .hbm, ⟨34, _⟩ => ⟨S_, .i32⟩
  | .hbm, ⟨35, _⟩ => ⟨S4x4096, .i32⟩
  | .hbm, ⟨36, _⟩ => ⟨S4x4096, .i32⟩
  | .hbm, ⟨37, _⟩ => ⟨S4x4096, .i32⟩
  | .hbm, ⟨38, _⟩ => ⟨S4x4096x1, .i32⟩
  | .hbm, ⟨39, _⟩ => ⟨S1, .i32⟩
  | .hbm, ⟨40, _⟩ => ⟨S_, .i32⟩
  | .hbm, ⟨41, _⟩ => ⟨S4x4096x1, .i32⟩
  | .hbm, ⟨42, _⟩ => ⟨S4x4096x1, .i1⟩
  | .hbm, ⟨43, _⟩ => ⟨S1x1x1, .i32⟩
  | .hbm, ⟨44, _⟩ => ⟨S4x4096x1, .i32⟩
  | .hbm, ⟨45, _⟩ => ⟨S4x4096x1, .i1⟩
  | .hbm, ⟨46, _⟩ => ⟨S4x4096x1, .i1⟩
  | .hbm, ⟨47, _⟩ => ⟨S_, .i1⟩
  | .hbm, ⟨48, _⟩ => ⟨S4x4096, .i1⟩
  | .hbm, ⟨49, _⟩ => ⟨S4x4096x1024, .f32⟩
  | .hbm, ⟨50, _⟩ => ⟨S4x4096x1024, .i1⟩
  | .hbm, ⟨51, _⟩ => ⟨S_, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S_, .f32⟩
  | .hbm, ⟨58, _⟩ => ⟨S4x4096, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S4x4096x1024, .f32⟩
  | .hbm, ⟨73, _⟩ => ⟨S4x4096x1024, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S4x4096x1, .f32⟩
  | .hbm, ⟨78, _⟩ => ⟨S4x4096x1024, .f32⟩
  | .hbm, ⟨79, _⟩ => ⟨S4x4096x1024, .f32⟩
  | .hbm, ⟨80, _⟩ => ⟨S1x1x1024, .f32⟩
  | .hbm, ⟨81, _⟩ => ⟨S4x4096x1024, .f32⟩
  | .hbm, ⟨82, _⟩ => ⟨S4x4096x1024, .f32⟩
  | .hbm, ⟨83, _⟩ => ⟨S1x1x1024, .f32⟩
  | .hbm, ⟨84, _⟩ => ⟨S4x4096x1024, .f32⟩
  | .hbm, ⟨85, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_cst : Ref sig .tc := ⟨.hbm, 57, rfl⟩
abbrev main_v7 : Ref sig .tc := ⟨.hbm, 58, rfl⟩
abbrev main_v8 : Ref sig .tc := ⟨.hbm, 59, rfl⟩
abbrev main_cst_0 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_cst_1 : Ref sig .tc := ⟨.hbm, 66, rfl⟩
abbrev main_v14 : Ref sig .tc := ⟨.hbm, 67, rfl⟩
abbrev main_v15 : Ref sig .tc := ⟨.hbm, 68, rfl⟩
abbrev main_cst_2 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_cst_3 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x1024_0 : S4096.BroadcastsInDim S4096x1024 (![0] : Fin 1 → Fin S4096x1024.rank)
  bcast_S_S4096x1024 : S_.BroadcastsInDim S4096x1024 (![] : Fin 0 → Fin S4096x1024.rank)
  bcast_S4096x1024_S1x4096x1024_1_2 : S4096x1024.BroadcastsInDim S1x4096x1024 (![1, 2] : Fin 2 → Fin S1x4096x1024.rank)
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  reducesTo_S4x4096x1_S4x4096_d2 : S4x4096x1.ReducesTo [2] S4x4096
  bcast_S4x4096_S4x4096x1024_0_1 : S4x4096.BroadcastsInDim S4x4096x1024 (![0, 1] : Fin 2 → Fin S4x4096x1024.rank)
  bcast_S_S4x4096x1024 : S_.BroadcastsInDim S4x4096x1024 (![] : Fin 0 → Fin S4x4096x1024.rank)
  bcast_S1x4096x1024_S4x4096x1024_0_1_2 : S1x4096x1024.BroadcastsInDim S4x4096x1024 (![0, 1, 2] : Fin 3 → Fin S4x4096x1024.rank)
  reducesTo_S4x4096x1024_S4x4096_d2 : S4x4096x1024.ReducesTo [2] S4x4096
  bcast_S4x4096x1_S4x4096x1024_0_1_2 : S4x4096x1.BroadcastsInDim S4x4096x1024 (![0, 1, 2] : Fin 3 → Fin S4x4096x1024.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  gather_S4096x1024_S4096x1_S4096x1024_1_0_n_n_0_1_11024_wf : GatherDims.WF S4096x1024 S4096x1 S4096x1024 [1] [0] [] [0] [] 1 ![1, 1024]
  gather_S2x1024_S4x4096x1_S4x4096x1024_2_0_n_n_0_2_11024_wf : GatherDims.WF S2x1024 S4x4096x1 S4x4096x1024 [2] [0] [] [0] [] 2 ![1, 1024]

variable [Facts₀]

def gather_S4096x1024_S4096x1_S4096x1024_1_0_n_n_0_1_11024 : GatherDims S4096x1024 S4096x1 S4096x1024 where
  offsetDims := [1]
  collapsedSliceDims := [0]
  operandBatchingDims := []
  startIndicesBatchingDims := []
  startIndexMap := [0]
  indexVectorDim := 1
  sliceSizes := ![1, 1024]
  wf := gather_S4096x1024_S4096x1_S4096x1024_1_0_n_n_0_1_11024_wf
def gather_S2x1024_S4x4096x1_S4x4096x1024_2_0_n_n_0_2_11024 : GatherDims S2x1024 S4x4096x1 S4x4096x1024 where
  offsetDims := [2]
  collapsedSliceDims := [0]
  operandBatchingDims := []
  startIndicesBatchingDims := []
  startIndexMap := [0]
  indexVectorDim := 2
  sliceSizes := ![1, 1024]
  wf := gather_S2x1024_S4x4096x1_S4x4096x1024_2_0_n_n_0_2_11024_wf

class Facts : Prop extends Facts₀ where

variable [Facts]
-- ==== Proof.Spec.lean ====
/-
  What both programs compute, as functions of the six argument arrays, index by index, on the extended reals.

  A row is the 1024 entries `x k = words[b, s, k] + position[s, k] + type_row[ids[b, s], k]` of one token.  The
  result at `(b, s, k)` is the row's layer normalisation: with mean `μ = (∑ x) / 1024`, centred entries
  `d k = x k - μ` and variance `σ² = (∑ d²) / 1024`, the entry `d k / √(σ² + ε) · γ k + β k`.

  The kernel spells the same quantities differently: the type row as `t₀ + id · (t₁ - t₀)` (a two-row table, so the
  lookup is an affine interpolation at `id ∈ {0, 1}`), both divisions by 1024 as products with `2⁻¹⁰`, and the
  division by the square root as a product with the reciprocal square root.  `outK` is the kernel's spelling,
  `outR` the reference's; `outK_eq_outR` joins them, for ids in `{0, 1}` and a finite type table.
-/
import Idealize.ShloMosaic.PureOps.Ideal
import Idealize.ShloMosaic.Lib.ValueIdx

noncomputable section

namespace Cert.EmbNorm

open Idealize.ShloMosaic Idealize.ShloMosaic.ValueIdx

/-- The three constants, as the words the programs carry: `2⁻¹⁰` (kernel), `1024` (reference), `ε` (both). -/
abbrev cInv : EReal := Ideal.ofBits .f32 0x3A800000#32
abbrev cN : EReal := Ideal.ofBits .f32 0x44800000#32
abbrev cEps : EReal := Ideal.ofBits .f32 0x2B8CBCCC#32

/-- The kernel's normalisation of a row `x`, at entry `k`, with scale `g` and shift `bt`. -/
def normK (x : Fin 1024 → EReal) (g bt : EReal) (k : Fin 1024) : EReal :=
  (x k - (∑ j, x j) * cInv)
    * Ideal.rsqrt ((∑ j, (x j - (∑ i, x i) * cInv) * (x j - (∑ i, x i) * cInv)) * cInv + cEps) * g + bt

/-- The reference's normalisation of a row. -/
def normR (x : Fin 1024 → EReal) (g bt : EReal) (k : Fin 1024) : EReal :=
  Ideal.div (x k - Ideal.div (∑ j, x j) cN)
    (Ideal.sqrt (Ideal.div (∑ j, (x j - Ideal.div (∑ i, x i) cN) * (x j - Ideal.div (∑ i, x i) cN)) cN + cEps)) * g + bt

abbrev SWords : Shape := ⟨3, ![4, 4096, 1024]⟩
abbrev SIds : Shape := ⟨2, ![4, 4096]⟩
abbrev SPos : Shape := ⟨2, ![4096, 1024]⟩
abbrev STypes : Shape := ⟨2, ![2, 1024]⟩
abbrev SHidden : Shape := ⟨1, ![1024]⟩

/-- The kernel's row: the type row interpolated between the table's two rows by the id read as a number. -/
def rowK (words : SWords.Idx → EReal) (ids : SIds.Idx → BitVec 32) (pos : SPos.Idx → EReal) (tt : STypes.Idx → EReal)
    (b : Fin 4) (s : Fin 4096) (k : Fin 1024) : EReal :=
  (words (ix3 b s k) + (pos (ix2 s k) + tt (ix2 0 k)))
    + (((ids (ix2 b s)).toInt : ℝ) : EReal) * (tt (ix2 1 k) - tt (ix2 0 k))

/-- The reference's row: the type row looked up. -/
def rowR (words : SWords.Idx → EReal) (ids : SIds.Idx → BitVec 32) (pos : SPos.Idx → EReal) (tt : STypes.Idx → EReal)
    (b : Fin 4) (s : Fin 4096) (k : Fin 1024) : EReal :=
  (words (ix3 b s k) + pos (ix2 s k)) + (if ids (ix2 b s) = 0#32 then tt (ix2 0 k) else tt (ix2 1 k))

def outK (words : SWords.Idx → EReal) (ids : SIds.Idx → BitVec 32) (pos : SPos.Idx → EReal) (tt : STypes.Idx → EReal)
    (gamma beta : SHidden.Idx → EReal) : SWords.Idx → EReal := fun i =>
  normK (rowK words ids pos tt (i 0) (i 1)) (gamma (ix1 (i 2))) (beta (ix1 (i 2))) (i 2)

def outR (words : SWords.Idx → EReal) (ids : SIds.Idx → BitVec 32) (pos : SPos.Idx → EReal) (tt : STypes.Idx → EReal)
    (gamma beta : SHidden.Idx → EReal) : SWords.Idx → EReal := fun i =>
  normR (rowR words ids pos tt (i 0) (i 1)) (gamma (ix1 (i 2))) (beta (ix1 (i 2))) (i 2)

/-! ## The constants as numbers -/

theorem cInv_eq : cInv = ((1 / 1024 : ℝ) : EReal) := by
  simp [Ideal.ofBits, Ideal.ieee, -EReal.coe_mul]; norm_num

theorem cN_eq : cN = ((1024 : ℝ) : EReal) := by
  simp [Ideal.ofBits, Ideal.ieee, -EReal.coe_mul]; norm_num

theorem cEps_pos : ∃ e : ℝ, 0 < e ∧ cEps = (e : EReal) := by
  simp [Ideal.ofBits, Ideal.ieee, -EReal.coe_mul]

/-! ## The normalisation: a product with `2⁻¹⁰` is the quotient by 1024, and over a positive radicand the
product with the reciprocal root is the quotient by the root — on every extended real, so no finiteness is used. -/

/-- A square is nonnegative on the extended reals too (`⊥ · ⊥ = ⊤`). -/
theorem mul_self_nonneg (d : EReal) : 0 ≤ d * d := by
  induction d using EReal.rec with
  | bot => simp
  | coe r => rw [← EReal.coe_mul]; exact_mod_cast _root_.mul_self_nonneg r
  | top => simp

/-- Over a positive radicand `v` (possibly `⊤`), `d · v^(-1/2) = d / √v`. -/
theorem mul_rsqrt_eq_div_sqrt (d v : EReal) (hv : 0 < v) : d * Ideal.rsqrt v = Ideal.div d (Ideal.sqrt v) := by
  induction v using EReal.rec with
  | bot => exact absurd hv (by simp)
  | top => simp [Ideal.div]
  | coe r =>
    have hr : 0 < r := by exact_mod_cast hv
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs]
    congr 1; norm_num

/-- The quotient by 1024 is the product with `2⁻¹⁰`, on every extended real. -/
theorem div_cN (s : EReal) : Ideal.div s cN = s * cInv := by
  rw [cN_eq, cInv_eq]; exact Ideal.div_coe (by norm_num) s

/-- The radicand `σ² + ε` is positive whatever the row. -/
theorem radicand_pos (d : Fin 1024 → EReal) : 0 < (∑ j, d j * d j) * cInv + cEps := by
  obtain ⟨e, he, hE⟩ := cEps_pos
  have h1 : (0 : EReal) ≤ ∑ j, d j * d j := Finset.sum_nonneg fun j _ => mul_self_nonneg (d j)
  have h2 : (0 : EReal) ≤ cInv := by rw [cInv_eq]; exact_mod_cast (by norm_num : (0 : ℝ) ≤ 1 / 1024)
  have h3 : (0 : EReal) < cEps := by rw [hE]; exact_mod_cast he
  exact lt_of_lt_of_le h3 (le_add_of_nonneg_left (mul_nonneg h1 h2))

theorem normK_eq_normR (x : Fin 1024 → EReal) (g bt : EReal) (k : Fin 1024) : normK x g bt k = normR x g bt k := by
  unfold normK normR
  simp only [div_cN]
  rw [mul_rsqrt_eq_div_sqrt _ _ (radicand_pos fun j => x j - (∑ i, x i) * cInv)]

/-! ## The row: interpolating between the table's two rows at `id ∈ {0, 1}` is the lookup, the first row finite -/

/-- A finite term cancels: `r + (t - r) = t` for real `r` and any extended real `t`. -/
theorem real_add_sub_cancel (r : ℝ) (t : EReal) : (r : EReal) + (t - r) = t := by
  induction t using EReal.rec with
  | bot => simp
  | coe t => norm_cast; ring
  | top => simp

theorem rowK_eq_rowR (words : SWords.Idx → EReal) (ids : SIds.Idx → BitVec 32) (pos : SPos.Idx → EReal) (tt : STypes.Idx → EReal)
    (b : Fin 4) (s : Fin 4096) (k : Fin 1024) (hid : ids (ix2 b s) = 0#32 ∨ ids (ix2 b s) = 1#32)
    (htt : ∃ r : ℝ, tt (ix2 0 k) = (r : EReal)) :
    rowK words ids pos tt b s k = rowR words ids pos tt b s k := by
  unfold rowK rowR
  obtain ⟨r, hr⟩ := htt
  rcases hid with h | h
  · rw [h, if_pos rfl]
    have : ((((0#32 : BitVec 32).toInt : ℝ)) : EReal) = 0 := by norm_num
    rw [this, zero_mul, add_zero, add_assoc]
  · rw [h, if_neg (by decide)]
    have : ((((1#32 : BitVec 32).toInt : ℝ)) : EReal) = 1 := by norm_num
    rw [this, one_mul, hr, add_assoc (words (ix3 b s k)), add_assoc (pos (ix2 s k)), real_add_sub_cancel, ← add_assoc]

theorem outK_eq_outR (words : SWords.Idx → EReal) (ids : SIds.Idx → BitVec 32) (pos : SPos.Idx → EReal) (tt : STypes.Idx → EReal)
    (gamma beta : SHidden.Idx → EReal) (hid : ∀ j : SIds.Idx, ids j = 0#32 ∨ ids j = 1#32)
    (htt : ∀ j : STypes.Idx, ∃ r : ℝ, tt j = (r : EReal)) :
    outK words ids pos tt gamma beta = outR words ids pos tt gamma beta := by
  funext i
  have hrow : rowK words ids pos tt (i 0) (i 1) = rowR words ids pos tt (i 0) (i 1) :=
    funext fun k => rowK_eq_rowR words ids pos tt (i 0) (i 1) k (hid _) (htt _)
  exact (normK_eq_normR _ _ _ _).trans
    (congrArg (fun x => normR x (gamma (ix1 (i 2))) (beta (ix1 (i 2))) (i 2)) hrow)

end Cert.EmbNorm

end
-- ==== Proof.KernelBlock.lean ====
/-
  One grid point's output block, entry by entry.

  At a point the body holds a [4, 512, 1] block of ids, a [4, 512, 1024] block of word embeddings, a [512, 1024] block of
  the position table, the whole [2, 1024] type table and the scale and shift as [1, 1024] rows.  The entry it stores at
  `(b, r, k)` is the kernel's normalisation (`EmbNorm.normK`) of the row
  `x k' = words[b, r, k'] + (pos[r, k'] + t₀[k']) + id[b, r] · (t₁[k'] - t₀[k'])`: the body's two lane sums are the sums over
  `k'` of that row and of its centred squares.
-/
import proofs.«101087_g44375602103182_cont_8to1_c_21_20_alg».proof.Proof.ValuePatched
import proofs.«101087_g44375602103182_cont_8to1_c_21_20_alg».proof.Proof.Spec
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.ValueIdx Cert.EmbNorm

/-! ## The body's layout operations, read at an index -/

section Layout
variable {α : Type}

/-- A [1, 1024] row broadcast down a [512, 1024] block reads the row at the column. -/
theorem rowDown_apply (v : S1x1024.Idx → α) (h : S1x1024.Broadcasts S512x1024) (r : Fin 512) (k : Fin 1024) :
    broadcastTo S512x1024 v h (ix2 r k) = v (ix2 0 k) :=
  broadcastTo_apply v h (ix2 r k) (ix2 0 k) (fun a => match a with
    | ⟨0, _⟩ => by show 0 = (if (1 : Nat) = 1 then 0 else r.val); rw [if_pos rfl]
    | ⟨1, _⟩ => by show k.val = (if (1024 : Nat) = 1 then 0 else k.val); rw [if_neg (by decide)])

/-- A [512, 1024] block viewed [1, 512, 1024] and broadcast over the 4 batch entries reads the block. -/
theorem overBatch_apply (v : S512x1024.Idx → α) (h : S512x1024.ShapeCasts S1x512x1024) (h' : S1x512x1024.Broadcasts S4x512x1024)
    (b : Fin 4) (r : Fin 512) (k : Fin 1024) :
    broadcastTo S4x512x1024 (shapeCast S1x512x1024 v h) h' (ix3 b r k) = v (ix2 r k) := by
  refine (broadcastTo_apply _ h' (ix3 b r k) (ix3 0 r k) (fun a => match a with
    | ⟨0, _⟩ => by show 0 = (if (1 : Nat) = 1 then 0 else b.val); rw [if_pos rfl]
    | ⟨1, _⟩ => by show r.val = (if (512 : Nat) = 1 then 0 else r.val); rw [if_neg (by decide)]
    | ⟨2, _⟩ => by show k.val = (if (1024 : Nat) = 1 then 0 else k.val); rw [if_neg (by decide)])).trans ?_
  exact shapeCast_apply v h (ix3 0 r k) (ix2 r k) (by
    rw [Shape.rowMajor_val_two, Shape.rowMajor_val_three]; show r.val * 1024 + k.val = (0 * 512 + r.val) * 1024 + k.val; omega)

/-- A keepdims column [4, 512, 1] broadcast along the 1024 entries reads the column. -/
theorem alongEntries_apply (v : S4x512x1.Idx → α) (h : S4x512x1.Broadcasts S4x512x1024) (b : Fin 4) (r : Fin 512) (k : Fin 1024) :
    broadcastTo S4x512x1024 v h (ix3 b r k) = v (ix3 b r 0) :=
  broadcastTo_apply v h (ix3 b r k) (ix3 b r 0) (fun a => match a with
    | ⟨0, _⟩ => by show b.val = (if (4 : Nat) = 1 then 0 else b.val); rw [if_neg (by decide)]
    | ⟨1, _⟩ => by show r.val = (if (512 : Nat) = 1 then 0 else r.val); rw [if_neg (by decide)]
    | ⟨2, _⟩ => by show 0 = (if (1 : Nat) = 1 then 0 else k.val); rw [if_pos rfl])

/-- A length-1024 vector viewed [1, 1, 1024] and broadcast over every row reads the vector at the column. -/
theorem overRows_apply (v : S1024.Idx → α) (h : S1024.ShapeCasts S1x1x1024) (h' : S1x1x1024.Broadcasts S4x512x1024)
    (b : Fin 4) (r : Fin 512) (k : Fin 1024) :
    broadcastTo S4x512x1024 (shapeCast S1x1x1024 v h) h' (ix3 b r k) = v (ix1 k) := by
  refine (broadcastTo_apply _ h' (ix3 b r k) (ix3 0 0 k) (fun a => match a with
    | ⟨0, _⟩ => by show 0 = (if (1 : Nat) = 1 then 0 else b.val); rw [if_pos rfl]
    | ⟨1, _⟩ => by show 0 = (if (1 : Nat) = 1 then 0 else r.val); rw [if_pos rfl]
    | ⟨2, _⟩ => by show k.val = (if (1024 : Nat) = 1 then 0 else k.val); rw [if_neg (by decide)])).trans ?_
  exact shapeCast_apply v h (ix3 0 0 k) (ix1 k) (by
    rw [Shape.rowMajor_val_one, Shape.rowMajor_val_three]; show k.val = (0 * 1 + 0) * 1024 + k.val; omega)

/-- A [1, 1024] row viewed as a length-1024 vector reads the row. -/
theorem rowAsVector_apply (v : S1x1024.Idx → α) (h : S1x1024.ShapeCasts S1024) (k : Fin 1024) :
    shapeCast S1024 v h (ix1 k) = v (ix2 0 k) :=
  shapeCast_apply v h (ix1 k) (ix2 0 k) (by
    rw [Shape.rowMajor_val_two, Shape.rowMajor_val_one]; show 0 * 1024 + k.val = k.val; omega)

/-- A [1, 1024] row viewed [1, 1, 1024] reads the row. -/
theorem rowAsSlab_apply (v : S1x1024.Idx → α) (h : S1x1024.ShapeCasts S1x1x1024) (k : Fin 1024) :
    shapeCast S1x1x1024 v h (ix3 0 0 k) = v (ix2 0 k) :=
  shapeCast_apply v h (ix3 0 0 k) (ix2 0 k) (by
    rw [Shape.rowMajor_val_two, Shape.rowMajor_val_three]; show 0 * 1024 + k.val = (0 * 1 + 0) * 1024 + k.val; omega)

/-- Per-row values [4, 512] as a keepdims column [4, 512, 1]. -/
theorem asColumn_apply (v : S4x512.Idx → α) (h : S4x512.ShapeCasts S4x512x1) (b : Fin 4) (r : Fin 512) :
    shapeCast S4x512x1 v h (ix3 b r 0) = v (ix2 b r) :=
  shapeCast_apply v h (ix3 b r 0) (ix2 b r) (by
    rw [Shape.rowMajor_val_two, Shape.rowMajor_val_three]; show b.val * 512 + r.val = (b.val * 512 + r.val) * 1 + 0; omega)

end Layout

/-! ## The summed embeddings of a block, as the body forms them -/

/-- `words + (pos + t₀) + float(id) · (t₁ - t₀)` over the block, the body's vector term. -/
def embVec (P0 : Vec Ideal S4x512x1024 .f32) (P1 : Vec Ideal S512x1024 .f32) (P2 : Vec Ideal S1x1024 .f32)
    (P3 : Vec Ideal S4x512x1 .i32) (P4 : Vec Ideal S1x1024 .f32) : FVec Ideal S4x512x1024 .f32 :=
  addf (addf P0 (broadcastTo S4x512x1024 (shapeCast S1x512x1024 (addf P1 (broadcastTo S512x1024 (shapeCast S1x1024 (shapeCast S1024 P2 shapeCasts_S1x1024_S1024) shapeCasts_S1024_S1x1024) broadcasts_S1x1024_S512x1024)) shapeCasts_S512x1024_S1x512x1024) broadcasts_S1x512x1024_S4x512x1024))
    (mulf (broadcastTo S4x512x1024 (sitofp (F := Ideal) .f32 (shapeCast S4x512x1 P3 shapeCasts_S4x512x1_S4x512x1)) broadcasts_S4x512x1_S4x512x1024)
      (broadcastTo S4x512x1024 (shapeCast S1x1x1024 (subf (shapeCast S1024 P4 shapeCasts_S1x1024_S1024) (shapeCast S1024 P2 shapeCasts_S1x1024_S1024)) shapeCasts_S1024_S1x1x1024) broadcasts_S1x1x1024_S4x512x1024))

/-- The same, entry by entry. -/
def embRow (P0 : Vec Ideal S4x512x1024 .f32) (P1 : Vec Ideal S512x1024 .f32) (P2 : Vec Ideal S1x1024 .f32)
    (P3 : Vec Ideal S4x512x1 .i32) (P4 : Vec Ideal S1x1024 .f32) (b : Fin 4) (r : Fin 512) (k : Fin 1024) : EReal :=
  (P0 (ix3 b r k) + (P1 (ix2 r k) + P2 (ix2 0 k))) + (((P3 (ix3 b r 0)).toInt : ℝ) : EReal) * (P4 (ix2 0 k) - P2 (ix2 0 k))

theorem embVec_apply (P0 : Vec Ideal S4x512x1024 .f32) (P1 : Vec Ideal S512x1024 .f32) (P2 : Vec Ideal S1x1024 .f32)
    (P3 : Vec Ideal S4x512x1 .i32) (P4 : Vec Ideal S1x1024 .f32) (b : Fin 4) (r : Fin 512) (k : Fin 1024) :
    embVec P0 P1 P2 P3 P4 (ix3 b r k) = embRow P0 P1 P2 P3 P4 b r k := by
  unfold embVec embRow
  simp only [addf_apply, mulf_apply, subf_apply, overBatch_apply, alongEntries_apply, overRows_apply, rowDown_apply,
    rowAsVector_apply, shapeCast_shapeCast, shapeCast_self, sitofp_apply]
  rfl

/-! ## The two lane sums and the mean column -/

/-- A lane sum of a block, as the body forms it (from the zero accumulator). -/
def sumVec (src : FVec Ideal S4x512x1024 .f32) : FVec Ideal S4x512 .f32 :=
  multiReduction .add [2] S4x512 src 0x00000000#32 reduces_S4x512x1024_S4x512 (.inl rfl) rfl

/-- … is the sum over the 1024 entries of the row. -/
theorem sumVec_apply (src : FVec Ideal S4x512x1024 .f32) (b : Fin 4) (r : Fin 512) :
    sumVec src (ix2 b r) = ∑ k : Fin 1024, src (ix3 b r k) := by
  unfold sumVec
  refine (Ideal.multiReduction_add_single src _ reduces_S4x512x1024_S4x512 _ _ (ix2 b r)).trans ?_
  refine Finset.sum_congr rfl fun k _ => congrArg src ?_
  funext a
  match a with
  | ⟨0, _⟩ => rfl
  | ⟨1, _⟩ => rfl
  | ⟨2, _⟩ => rfl

/-- Per-row sums times `2⁻¹⁰`, as a keepdims column spread along the entries: the body's mean. -/
def meanVec (v : FVec Ideal S4x512 .f32) : FVec Ideal S4x512x1024 .f32 :=
  broadcastTo S4x512x1024 (mulf (shapeCast S4x512x1 v shapeCasts_S4x512_S4x512x1) (broadcast S4x512x1 (Scalar.ofBits .f32 0x3A800000#32)))
    broadcasts_S4x512x1_S4x512x1024

theorem meanVec_apply (v : FVec Ideal S4x512 .f32) (b : Fin 4) (r : Fin 512) (k : Fin 1024) :
    meanVec v (ix3 b r k) = v (ix2 b r) * cInv := by
  unfold meanVec
  rw [alongEntries_apply, mulf_apply, asColumn_apply]
  rfl

/-- The centred block. -/
def centredVec (x : FVec Ideal S4x512x1024 .f32) : FVec Ideal S4x512x1024 .f32 := subf x (meanVec (sumVec x))

/-! ## The block's entry -/

open Cert.KernelIdeal.ValueP in
/-- What the body's one store leaves at `(b, r, k)`, from the loaded blocks: the kernel's normalisation of the row. -/
theorem E6_apply (P0 : Vec Ideal S4x512x1024 .f32) (P1 : Vec Ideal S512x1024 .f32) (P2 : Vec Ideal S1x1024 .f32)
    (P3 : Vec Ideal S4x512x1 .i32) (P4 P5 P6 : Vec Ideal S1x1024 .f32) (b : Fin 4) (r : Fin 512) (k : Fin 1024) :
    E6 P0 P1 P2 P3 P4 P5 P6 (ix3 b r k) = normK (embRow P0 P1 P2 P3 P4 b r) (P5 (ix2 0 k)) (P6 (ix2 0 k)) k := by
  have h0 : ix6_0 (ix3 b r k) = ix3 b r k := by funext a; match a with | ⟨0, _⟩ => rfl | ⟨1, _⟩ => rfl | ⟨2, _⟩ => rfl
  have h1 : ix6_1 (ix3 b r k) = ix2 r k := by funext a; match a with | ⟨0, _⟩ => rfl | ⟨1, _⟩ => rfl
  have h2 : ix6_2 (ix3 b r k) = ix2 0 k := by funext a; match a with | ⟨0, _⟩ => rfl | ⟨1, _⟩ => rfl
  have h3 : ix6_3 (ix3 b r k) = ix3 b r 0 := by funext a; match a with | ⟨0, _⟩ => rfl | ⟨1, _⟩ => rfl | ⟨2, _⟩ => rfl
  have h4 : ix6_4 (ix3 b r k) = ix2 0 k := by funext a; match a with | ⟨0, _⟩ => rfl | ⟨1, _⟩ => rfl
  have h5 : ix6_5 (ix3 b r k) = ix2 0 k := by funext a; match a with | ⟨0, _⟩ => rfl | ⟨1, _⟩ => rfl
  have h6 : ix6_6 (ix3 b r k) = ix2 b r := by funext a; match a with | ⟨0, _⟩ => rfl | ⟨1, _⟩ => rfl
  have h7 : ix6_7 (ix3 b r k) = ix2 b r := by funext a; match a with | ⟨0, _⟩ => rfl | ⟨1, _⟩ => rfl
  have h8 : ix6_8 (ix3 b r k) = ix2 0 k := by funext a; match a with | ⟨0, _⟩ => rfl | ⟨1, _⟩ => rfl
  have h9 : ix6_9 (ix3 b r k) = ix2 0 k := by funext a; match a with | ⟨0, _⟩ => rfl | ⟨1, _⟩ => rfl
  have e1 : sumVec (embVec P0 P1 P2 P3 P4) (ix2 b r) = ∑ j, embRow P0 P1 P2 P3 P4 b r j := by
    rw [sumVec_apply]; exact Finset.sum_congr rfl fun j _ => embVec_apply P0 P1 P2 P3 P4 b r j
  have e2 : ∀ j : Fin 1024, centredVec (embVec P0 P1 P2 P3 P4) (ix3 b r j)
      = embRow P0 P1 P2 P3 P4 b r j - (∑ i, embRow P0 P1 P2 P3 P4 b r i) * cInv := by
    intro j
    show embVec P0 P1 P2 P3 P4 (ix3 b r j) - meanVec (sumVec (embVec P0 P1 P2 P3 P4)) (ix3 b r j) = _
    rw [embVec_apply, meanVec_apply, e1]
  have e3 : sumVec (mulf (centredVec (embVec P0 P1 P2 P3 P4)) (centredVec (embVec P0 P1 P2 P3 P4))) (ix2 b r)
      = ∑ j, (embRow P0 P1 P2 P3 P4 b r j - (∑ i, embRow P0 P1 P2 P3 P4 b r i) * cInv)
          * (embRow P0 P1 P2 P3 P4 b r j - (∑ i, embRow P0 P1 P2 P3 P4 b r i) * cInv) := by
    rw [sumVec_apply]
    refine Finset.sum_congr rfl fun j _ => ?_
    rw [mulf_apply, e2 j]
  unfold E6
  rw [h0, h1, h2, h3, h4, h5, h6, h7, h8, h9]
  show (embRow P0 P1 P2 P3 P4 b r k - sumVec (embVec P0 P1 P2 P3 P4) (ix2 b r) * cInv)
      * Ideal.rsqrt (sumVec (mulf (centredVec (embVec P0 P1 P2 P3 P4)) (centredVec (embVec P0 P1 P2 P3 P4))) (ix2 b r) * cInv + cEps)
      * P5 (ix2 0 k) + P6 (ix2 0 k) = _
  rw [e1, e3]
  rfl

/-! ## The same over the staged blocks, as the body loads them -/

/-- The row from the staged blocks: ids `x0`, words `x1`, positions `x2`, the whole two-row type table `x3`. -/
def blockRow (x0 : Vec Ideal S4x512x1 .i32) (x1 : Vec Ideal S4x512x1024 .f32) (x2 : Vec Ideal S512x1024 .f32)
    (x3 : Vec Ideal S2x1024 .f32) (b : Fin 4) (r : Fin 512) (k : Fin 1024) : EReal :=
  (x1 (ix3 b r k) + (x2 (ix2 r k) + x3 (ix2 0 k))) + (((x0 (ix3 b r 0)).toInt : ℝ) : EReal) * (x3 (ix2 1 k) - x3 (ix2 0 k))

/-- The loads' rectangles: whole blocks at offset zero, and the two rows of the type table. -/
theorem idx_words (b : Fin 4) (r : Fin 512) (k : Fin 1024) : r0_4.idx (ix3 b r k) = ix3 b r k := by
  funext a; apply Fin.ext
  match a with
  | ⟨0, _⟩ => show 0 + 1 * b.val = b.val; omega
  | ⟨1, _⟩ => show 0 + 1 * r.val = r.val; omega
  | ⟨2, _⟩ => show 0 + 1 * k.val = k.val; omega
theorem idx_pos (r : Fin 512) (k : Fin 1024) : r0_0.idx (ix2 r k) = ix2 r k := by
  funext a; apply Fin.ext
  match a with
  | ⟨0, _⟩ => show 0 + 1 * r.val = r.val; omega
  | ⟨1, _⟩ => show 0 + 1 * k.val = k.val; omega
theorem idx_type0 (k : Fin 1024) : r0_1.idx (ix2 0 k) = ix2 0 k := by
  funext a; apply Fin.ext
  match a with
  | ⟨0, _⟩ => show 0 + 1 * 0 = 0; omega
  | ⟨1, _⟩ => show 0 + 1 * k.val = k.val; omega
theorem idx_type1 (k : Fin 1024) : r0_3.idx (ix2 0 k) = ix2 1 k := by
  funext a; apply Fin.ext
  match a with
  | ⟨0, _⟩ => show 1 + 1 * 0 = 1; omega
  | ⟨1, _⟩ => show 0 + 1 * k.val = k.val; omega
theorem idx_ids (b : Fin 4) (r : Fin 512) : r0_2.idx (ix3 b r 0) = ix3 b r 0 := by
  funext a; apply Fin.ext
  match a with
  | ⟨0, _⟩ => show 0 + 1 * b.val = b.val; omega
  | ⟨1, _⟩ => show 0 + 1 * r.val = r.val; omega
  | ⟨2, _⟩ => show 0 + 1 * 0 = 0; omega
theorem idx_vec (k : Fin 1024) : r0_5.idx (ix2 0 k) = ix2 0 k := by
  funext a; apply Fin.ext
  match a with
  | ⟨0, _⟩ => show 0 + 1 * 0 = 0; omega
  | ⟨1, _⟩ => show 0 + 1 * k.val = k.val; omega

/-- The entry the body leaves in the output block at `(b, r, k)`, from the staged blocks. -/
theorem out_block (x0 : Vec Ideal S4x512x1 .i32) (x1 : Vec Ideal S4x512x1024 .f32) (x2 : Vec Ideal S512x1024 .f32)
    (x3 : Vec Ideal S2x1024 .f32) (x4 x5 : Vec Ideal S1x1024 .f32) (b : Fin 4) (r : Fin 512) (k : Fin 1024) :
    out0_6 (F := Ideal) x0 x1 x2 x3 x4 x5 (ix3 b r k)
      = normK (blockRow x0 x1 x2 x3 b r) (x4 (ix2 0 k)) (x5 (ix2 0 k)) k := by
  unfold out0_6
  rw [Cert.KernelIdeal.ValueP.canon6_eq, E6_apply]
  have hrow : embRow (View.ld x1 r0_4) (View.ld x2 r0_0) (View.ld x3 r0_1) (View.ld x0 r0_2) (View.ld x3 r0_3) b r
      = blockRow x0 x1 x2 x3 b r := by
    funext j
    show (x1 (r0_4.idx (ix3 b r j)) + (x2 (r0_0.idx (ix2 r j)) + x3 (r0_1.idx (ix2 0 j))))
        + (((x0 (r0_2.idx (ix3 b r 0))).toInt : ℝ) : EReal) * (x3 (r0_3.idx (ix2 0 j)) - x3 (r0_1.idx (ix2 0 j))) = _
    rw [idx_words, idx_pos, idx_type0, idx_ids, idx_type1]
    rfl
  rw [hrow]
  show normK _ (x4 (r0_5.idx (ix2 0 k))) (x5 (r0_5.idx (ix2 0 k))) k = _
  rw [idx_vec]

end Cert.KernelIdeal.Block

end
-- ==== Proof.KernelArray.lean ====
/-
  From the grid's blocks to the whole result array.

  The grid has eight points; point `t` stages rows `[512 t, 512 t + 512)` of every batch entry: the ids (the [4, 4096]
  argument viewed [4, 4096, 1]), the word embeddings and the position table move with the output, the type table and the scale
  and shift (the [1024] arguments viewed [1, 1024]) are staged whole.  So the block point `t` writes back is block `t` of ONE
  function of the argument arrays, `EmbNorm.outK`, and the eight blocks cover the array.
-/
import proofs.«101087_g44375602103182_cont_8to1_c_21_20_alg».proof.Proof.KernelBlock
import Idealize.ShloMosaic.Lib.StableHlo.Run

noncomputable section

namespace Cert.KernelIdeal.Whole

open Cert.KernelIdeal Cert.KernelIdeal.Gen Cert.KernelIdeal.Block Idealize.ShloMosaic Idealize.ShloMosaic.TcCoe Idealize.SL.Sem
open Idealize.ShloMosaic.ValueIdx Cert.EmbNorm
open Idealize.ShloMosaic.Pipeline (Dat)

/-- An entry of a block is the kernel's function of the arrays at the entry's place in them, once each staged block is
    the matching part of its array: `s` is the token's row in the arrays, `r` its row in the block. -/
theorem entry_eq (X0 : Vec Ideal S4x512x1 .i32) (X1 : Vec Ideal S4x512x1024 .f32) (X2 : Vec Ideal S512x1024 .f32)
    (X3 : Vec Ideal S2x1024 .f32) (X4 X5 : Vec Ideal S1x1024 .f32)
    (A0 : SWords.Idx → EReal) (A1 : SIds.Idx → BitVec 32) (A2 : SPos.Idx → EReal) (A3 : STypes.Idx → EReal)
    (A4 A5 : SHidden.Idx → EReal) (b : Fin 4) (r : Fin 512) (k : Fin 1024) (s : Fin 4096)
    (h0 : X0 (ix3 b r 0) = A1 (ix2 b s))
    (h1 : ∀ j : Fin 1024, X1 (ix3 b r j) = A0 (ix3 b s j))
    (h2 : ∀ j : Fin 1024, X2 (ix2 r j) = A2 (ix2 s j))
    (h3 : ∀ (a : Fin 2) (j : Fin 1024), X3 (ix2 a j) = A3 (ix2 a j))
    (h4 : X4 (ix2 0 k) = A4 (ix1 k)) (h5 : X5 (ix2 0 k) = A5 (ix1 k)) :
    normK (blockRow X0 X1 X2 X3 b r) (X4 (ix2 0 k)) (X5 (ix2 0 k)) k = outK A0 A1 A2 A3 A4 A5 (ix3 b s k) := by
  have hrow : blockRow X0 X1 X2 X3 b r = rowK A0 A1 A2 A3 b s := by
    funext j; unfold blockRow rowK; rw [h0, h1, h2, h3, h3]
  show _ = normK (rowK A0 A1 A2 A3 b s) (A4 (ix1 k)) (A5 (ix1 k)) k
  rw [hrow, h4, h5]

variable (m : (ℓ : Loc nD τ sig) → Buf (Elt Ideal) ℓ) (ρ : Dev nD → PrngReg)

/-- The result array as one function of the argument arrays. -/
def result (c : Dev nD) : S4x4096x1024.Idx → EReal :=
  outK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The arrays the region finds: three of them are views of arguments -/

theorem V_ids (c : Dev nD) : (V m c main_v0 : S4x4096x1.Idx → BitVec 32)
    = shapeCast S4x4096x1 (m ((c : Thread nD τ).loc main_arg1)) shapeCasts_S4x4096_S4x4096x1 := by
  dsimp only [Gen.V, Gen.hostOps0]; after_results; rfl

theorem V_scale (c : Dev nD) : (V m c main_v1 : S1x1024.Idx → EReal)
    = shapeCast S1x1024 (m ((c : Thread nD τ).loc main_arg4)) shapeCasts_S1024_S1x1024 := by
  dsimp only [Gen.V, Gen.hostOps0]; after_results; rfl

theorem V_shift (c : Dev nD) : (V m c main_v2 : S1x1024.Idx → EReal)
    = shapeCast S1x1024 (m ((c : Thread nD τ).loc main_arg5)) shapeCasts_S1024_S1x1024 := by
  dsimp only [Gen.V, Gen.hostOps0]; after_results; rfl

/-! ## The index maps over the grid -/

/-- Decided over the eight points: the ids', words' and positions' blocks move with the output's along the rows, every other
    block index is zero, and the output's row block index is at most 7. -/
theorem idx_facts : ∀ t : Fin cfg0.N,
    win0_0.index t (0 : Fin 3) = 0 ∧ win0_0.index t (1 : Fin 3) = win0_6.index t (1 : Fin 3) ∧ win0_0.index t (2 : Fin 3) = 0
    ∧ win0_1.index t (0 : Fin 3) = 0 ∧ win0_1.index t (1 : Fin 3) = win0_6.index t (1 : Fin 3) ∧ win0_1.index t (2 : Fin 3) = 0
    ∧ win0_2.index t (0 : Fin 2) = win0_6.index t (1 : Fin 3) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (2 : Fin 3) = 0 ∧ win0_6.index t (1 : Fin 3) ≤ 7 :=
  (by decide +kernel : ∀ t : Fin grid0.N, _)

/-- Every row block is some point's. -/
theorem idx_onto : ∀ q : Fin 8, ∃ t : Fin cfg0.N, win0_6.index t = ![0, q.val, 0] :=
  (by decide +kernel : ∀ q : Fin 8, ∃ t : Fin grid0.N, win0_6.index t = ![0, q.val, 0])

/-! ## What a point writes back -/

/-- WHAT POINT `t` WRITES BACK is block `t` of `result`. -/
theorem flushed_eq (c : Dev nD) (t : Fin cfg0.N) :
    (dats m 0 c).flushed 6 t = ((cfg0.win 6).blk t).view.read (Elt Ideal) (result m c) := by
  rw [Cert.KernelIdeal.ValueP.flushed6]
  obtain ⟨e00, e01, e02, e10, e11, e12, e20, e21, e30, e31, e40, e41, e50, e51, e60, e62, e6le⟩ := idx_facts t
  funext y
  have hy0 : (y 0).val < 4 := (y 0).isLt
  have hy1 : (y 1).val < 512 := (y 1).isLt
  have hy2 : (y 2).val < 1024 := (y 2).isLt
  have hs : win0_6.index t (1 : Fin 3) * 512 + (y 1).val < 4096 := by omega
  show out0_6 (iblk m c 0 t) (iblk m c 1 t) (iblk m c 2 t) (iblk m c 3 t) (iblk m c 4 t) (iblk m c 5 t) y
    = result m c (((cfg0.win 6).blk t).view.emb y)
  have hemb : ((cfg0.win 6).blk t).view.emb y
      = ix3 (⟨(y 0).val, hy0⟩ : Fin 4) (⟨win0_6.index t (1 : Fin 3) * 512 + (y 1).val, hs⟩ : Fin 4096) (⟨(y 2).val, hy2⟩ : Fin 1024) := by
    funext a; apply Fin.ext
    match a with
    | ⟨0, _⟩ => show win0_6.index t (0 : Fin 3) * 4 + 1 * (y 0).val = (y 0).val; omega
    | ⟨1, _⟩ => show win0_6.index t (1 : Fin 3) * 512 + 1 * (y 1).val = win0_6.index t (1 : Fin 3) * 512 + (y 1).val; omega
    | ⟨2, _⟩ => show win0_6.index t (2 : Fin 3) * 1024 + 1 * (y 2).val = (y 2).val; omega
  have hyix : y = ix3 (⟨(y 0).val, hy0⟩ : Fin 4) (⟨(y 1).val, hy1⟩ : Fin 512) (⟨(y 2).val, hy2⟩ : Fin 1024) := by
    funext a
    match a with
    | ⟨0, _⟩ => rfl
    | ⟨1, _⟩ => rfl
    | ⟨2, _⟩ => rfl
  rw [hemb]
  refine (congrArg (out0_6 (iblk m c 0 t) (iblk m c 1 t) (iblk m c 2 t) (iblk m c 3 t) (iblk m c 4 t) (iblk m c 5 t)) hyix).trans ?_
  refine (out_block (iblk m c 0 t) (iblk m c 1 t) (iblk m c 2 t) (iblk m c 3 t) (iblk m c 4 t) (iblk m c 5 t)
    ⟨(y 0).val, hy0⟩ ⟨(y 1).val, hy1⟩ ⟨(y 2).val, hy2⟩).trans ?_
  refine entry_eq (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ⟨(y 0).val, hy0⟩ ⟨(y 1).val, hy1⟩ ⟨(y 2).val, hy2⟩ ⟨win0_6.index t (1 : Fin 3) * 512 + (y 1).val, hs⟩ ?_ ?_ ?_ ?_ ?_ ?_
  · -- the ids' block: rows of the [4, 4096] argument viewed [4, 4096, 1]
    show V m c main_v0 (((cfg0.win 0).blk t).view.emb (ix3 (⟨(y 0).val, hy0⟩ : Fin 4) (⟨(y 1).val, hy1⟩ : Fin 512) (0 : Fin 1))) = _
    have he : ((cfg0.win 0).blk t).view.emb (ix3 (⟨(y 0).val, hy0⟩ : Fin 4) (⟨(y 1).val, hy1⟩ : Fin 512) (0 : Fin 1))
        = ix3 (⟨(y 0).val, hy0⟩ : Fin 4) (⟨win0_6.index t (1 : Fin 3) * 512 + (y 1).val, hs⟩ : Fin 4096) (0 : Fin 1) := by
      funext a; apply Fin.ext
      match a with
      | ⟨0, _⟩ => show win0_0.index t (0 : Fin 3) * 4 + 1 * (y 0).val = (y 0).val; omega
      | ⟨1, _⟩ => show win0_0.index t (1 : Fin 3) * 512 + 1 * (y 1).val = win0_6.index t (1 : Fin 3) * 512 + (y 1).val; omega
      | ⟨2, _⟩ => show win0_0.index t (2 : Fin 3) * 1 + 1 * 0 = 0; omega
    rw [he, V_ids]
    exact shapeCast_apply _ _ (ix3 (⟨(y 0).val, hy0⟩ : Fin 4) (⟨win0_6.index t (1 : Fin 3) * 512 + (y 1).val, hs⟩ : Fin 4096) (0 : Fin 1))
      (ix2 (⟨(y 0).val, hy0⟩ : Fin 4) (⟨win0_6.index t (1 : Fin 3) * 512 + (y 1).val, hs⟩ : Fin 4096)) (by
        rw [Shape.rowMajor_val_two, Shape.rowMajor_val_three]
        show (y 0).val * 4096 + (win0_6.index t (1 : Fin 3) * 512 + (y 1).val)
          = ((y 0).val * 4096 + (win0_6.index t (1 : Fin 3) * 512 + (y 1).val)) * 1 + 0
        omega)
  · -- the words' block
    intro j
    show V m c main_arg0 (((cfg0.win 1).blk t).view.emb (ix3 (⟨(y 0).val, hy0⟩ : Fin 4) (⟨(y 1).val, hy1⟩ : Fin 512) j)) = _
    rw [V_main_arg0]
    refine congrArg _ ?_
    funext a; apply Fin.ext
    match a with
    | ⟨0, _⟩ => show win0_1.index t (0 : Fin 3) * 4 + 1 * (y 0).val = (y 0).val; omega
    | ⟨1, _⟩ => show win0_1.index t (1 : Fin 3) * 512 + 1 * (y 1).val = win0_6.index t (1 : Fin 3) * 512 + (y 1).val; omega
    | ⟨2, _⟩ => show win0_1.index t (2 : Fin 3) * 1024 + 1 * j.val = j.val; omega
  · -- the position table's block
    intro j
    show V m c main_arg2 (((cfg0.win 2).blk t).view.emb (ix2 (⟨(y 1).val, hy1⟩ : Fin 512) j)) = _
    rw [V_main_arg2]
    refine congrArg _ ?_
    funext a; apply Fin.ext
    match a with
    | ⟨0, _⟩ => show win0_2.index t (0 : Fin 2) * 512 + 1 * (y 1).val = win0_6.index t (1 : Fin 3) * 512 + (y 1).val; omega
    | ⟨1, _⟩ => show win0_2.index t (1 : Fin 2) * 1024 + 1 * j.val = j.val; omega
  · -- the type table, whole
    intro a' j
    show V m c main_arg3 (((cfg0.win 3).blk t).view.emb (ix2 a' j)) = _
    rw [V_main_arg3]
    refine congrArg _ ?_
    funext a; apply Fin.ext
    match a with
    | ⟨0, _⟩ => show win0_3.index t (0 : Fin 2) * 2 + 1 * a'.val = a'.val; omega
    | ⟨1, _⟩ => show win0_3.index t (1 : Fin 2) * 1024 + 1 * j.val = j.val; omega
  · -- the scale, the [1024] argument viewed [1, 1024]
    show V m c main_v1 (((cfg0.win 4).blk t).view.emb (ix2 (0 : Fin 1) (⟨(y 2).val, hy2⟩ : Fin 1024))) = _
    have he : ((cfg0.win 4).blk t).view.emb (ix2 (0 : Fin 1) (⟨(y 2).val, hy2⟩ : Fin 1024)) = ix2 (0 : Fin 1) (⟨(y 2).val, hy2⟩ : Fin 1024) := by
      funext a; apply Fin.ext
      match a with
      | ⟨0, _⟩ => show win0_4.index t (0 : Fin 2) * 1 + 1 * 0 = 0; omega
      | ⟨1, _⟩ => show win0_4.index t (1 : Fin 2) * 1024 + 1 * (y 2).val = (y 2).val; omega
    rw [he, V_scale]
    exact shapeCast_apply _ _ (ix2 (0 : Fin 1) (⟨(y 2).val, hy2⟩ : Fin 1024)) (ix1 (⟨(y 2).val, hy2⟩ : Fin 1024)) (by
      rw [Shape.rowMajor_val_one, Shape.rowMajor_val_two]; show (y 2).val = 0 * 1024 + (y 2).val; omega)
  · -- the shift, likewise
    show V m c main_v2 (((cfg0.win 5).blk t).view.emb (ix2 (0 : Fin 1) (⟨(y 2).val, hy2⟩ : Fin 1024))) = _
    have he : ((cfg0.win 5).blk t).view.emb (ix2 (0 : Fin 1) (⟨(y 2).val, hy2⟩ : Fin 1024)) = ix2 (0 : Fin 1) (⟨(y 2).val, hy2⟩ : Fin 1024) := by
      funext a; apply Fin.ext
      match a with
      | ⟨0, _⟩ => show win0_5.index t (0 : Fin 2) * 1 + 1 * 0 = 0; omega
      | ⟨1, _⟩ => show win0_5.index t (1 : Fin 2) * 1024 + 1 * (y 2).val = (y 2).val; omega
    rw [he, V_shift]
    exact shapeCast_apply _ _ (ix2 (0 : Fin 1) (⟨(y 2).val, hy2⟩ : Fin 1024)) (ix1 (⟨(y 2).val, hy2⟩ : Fin 1024)) (by
      rw [Shape.rowMajor_val_one, Shape.rowMajor_val_two]; show (y 2).val = 0 * 1024 + (y 2).val; omega)

/-! ## The eight blocks cover the array -/

/-- An index of the array is in point `t`'s block iff each coordinate is in the block's range on its axis. -/
theorem mem_blk (t : Fin cfg0.N) (i : S4x4096x1024.Idx) :
    i ∈ ((cfg0.win 6).blk t).view.set ↔ ∀ a : Fin 3, win0_6.index t a * S4x512x1024.size a ≤ (i a).val
      ∧ (i a).val < win0_6.index t a * S4x512x1024.size a + S4x512x1024.size a := by
  show i ∈ ((View.whole main_v3).slice (win0_6.rect t)).set ↔ _
  rw [View.set_slice_whole, Rect.mem_set_unit]
  exact Iff.rfl

/-- Row `s` of the array is in the block of the point whose row block index is `s / 512`. -/
theorem cover (i : S4x4096x1024.Idx) : ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 1024 := (i 2).isLt
  obtain ⟨t, ht⟩ := idx_onto ⟨(i 1).val / 512, by omega⟩
  have q0 : win0_6.index t (0 : Fin 3) = 0 := congrFun ht 0
  have q1 : win0_6.index t (1 : Fin 3) = (i 1).val / 512 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 4 ≤ (i 0).val ∧ (i 0).val < win0_6.index t (0 : Fin 3) * 4 + 4; omega
  | ⟨1, _⟩ => show win0_6.index t (1 : Fin 3) * 512 ≤ (i 1).val ∧ (i 1).val < win0_6.index t (1 : Fin 3) * 512 + 512; omega
  | ⟨2, _⟩ => show win0_6.index t (2 : Fin 3) * 1024 ≤ (i 2).val ∧ (i 2).val < win0_6.index t (2 : Fin 3) * 1024 + 1024; omega

/-- THE ARRAY after the run is `result`. -/
theorem final (c : Dev nD) : (dats m 0 c).arrAt 6 cfg0.N = result m c :=
  (dats m 0 c).arrAt_eq_of_cover 6 (result m c) (fun t _ => flushed_eq m c t) cover

/-- The kernel's run: the result buffer ends at `result`, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.ValueP.run_blocks m ρ)

end Cert.KernelIdeal.Whole

end
-- ==== Proof.RefRun.lean ====
/-
  The reference program's run, read back.

  @main is a straight line of eighty host operations once its two lookups are opened at their call sites:
  `jnp.take(position_table, arange(4096), axis=0)` and `jnp.take(token_type_table, token_type_ids, axis=0)`, each the
  index normalisation `where(i < 0, i + n, i)`, the in-range mask `0 ≤ i ≤ n - 1`, the row gather and the select that
  keeps the gathered row where the mask holds; then the three-way sum and the layer normalisation.  `ops` lists them,
  `main_eq` says @main is that list, and `run` that every weakly fair execution ends with the result buffer at
  `refOut` of the launch contents of the six arguments, which it leaves unchanged.  `refOut` is spelt in stages
  (`posIdx`, `posMask`, `posRows`, `typeIdx`, `typeMask`, `typeRows`, `rowSum`, `rowMean`, `centred`, `normTail`) so that a value proof can read one stage at a time.
-/
import proofs.«101087_g44375602103182_cont_8to1_c_21_20_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order, the two lookups' bodies at their call sites over the calls' buffers. -/
abbrev ops : List (HloOp τ sig (Elt F)) :=
  [
    nullary main_v0 (iotaInDim S4096 32 0),
    TRef.nullary main_call0.c (constantI S_ 32 0#32),
    TRef.unary main_call0.c main_call0.v0 (broadcastInDim S4096 ![] bcast_S_S4096),
    TRef.binary (.of main_v0) main_call0.v0 main_call0.v1 (cmpi .slt),
    TRef.nullary main_call0.c_0 (constantI S_ 32 4096#32),
    TRef.unary main_call0.c_0 main_call0.v2 (broadcastInDim S4096 ![] bcast_S_S4096),
    TRef.binary (.of main_v0) main_call0.v2 main_call0.v3 addi,
    TRef.ternary main_call0.v1 main_call0.v3 (.of main_v0) main_call0.call0.v0 select,
    TRef.unary main_call0.call0.v0 main_call0.v5 (broadcastInDim S4096x1 ![0] bcast_S4096_S4096x1_0),
    TRef.nullary main_call0.c_1 (constantI S1 32 4095#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg2) main_call0.v5 main_call0.v13 (fun x i => Host.gather gather_S4096x1024_S4096x1_S4096x1024_1_0_n_n_0_1_11024 x i),
    TRef.unary main_call0.v12 main_call0.v14 (broadcastInDim S4096x1024 ![0] bcast_S4096_S4096x1024_0),
    TRef.nullary main_call0.cst (constant S_ .f32 0x7FC00000#32),
    TRef.unary main_call0.cst main_call0.v15 (broadcastInDim S4096x1024 ![] bcast_S_S4096x1024),
    TRef.ternary main_call0.v14 main_call0.v13 main_call0.v15 main_call0.v16 select,
    unary main_v1 main_v2 (broadcastInDim S1x4096x1024 ![1, 2] bcast_S4096x1024_S1x4096x1024_1_2),
    TRef.nullary main_call1.c (constantI S_ 32 0#32),
    TRef.unary main_call1.c main_call1.v0 (broadcastInDim S4x4096 ![] bcast_S_S4x4096),
    TRef.binary (.of main_arg1) main_call1.v0 main_call1.v1 (cmpi .slt),
    TRef.nullary main_call1.c_0 (constantI S_ 32 2#32),
    TRef.unary main_call1.c_0 main_call1.v2 (broadcastInDim S4x4096 ![] bcast_S_S4x4096),
    TRef.binary (.of main_arg1) main_call1.v2 main_call1.v3 addi,
    TRef.ternary main_call1.v1 main_call1.v3 (.of main_arg1) main_call1.call0.v0 select,
    TRef.unary main_call1.call0.v0 main_call1.v5 (broadcastInDim S4x4096x1 ![0, 1] bcast_S4x4096_S4x4096x1_0_1),
    TRef.nullary main_call1.c_1 (constantI S1 32 1#32),
    TRef.nullary main_call1.c_2 (constantI S_ 32 0#32),
    TRef.unary main_call1.c_2 main_call1.v6 (broadcastInDim S4x4096x1 ![] bcast_S_S4x4096x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4x4096x1 ![0, 1, 2] bcast_S1x1x1_S4x4096x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x4096x1_S4x4096_d2 h_S_),
    TRef.binary (.of main_arg3) main_call1.v5 main_call1.v13 (fun x i => Host.gather gather_S2x1024_S4x4096x1_S4x4096x1024_2_0_n_n_0_2_11024 x i),
    TRef.unary main_call1.v12 main_call1.v14 (broadcastInDim S4x4096x1024 ![0, 1] bcast_S4x4096_S4x4096x1024_0_1),
    TRef.nullary main_call1.cst (constant S_ .f32 0x7FC00000#32),
    TRef.unary main_call1.cst main_call1.v15 (broadcastInDim S4x4096x1024 ![] bcast_S_S4x4096x1024),
    TRef.ternary main_call1.v14 main_call1.v13 main_call1.v15 main_call1.v16 select,
    unary main_v2 main_v4 (broadcastInDim S4x4096x1024 ![0, 1, 2] bcast_S1x4096x1024_S4x4096x1024_0_1_2),
    binary main_arg0 main_v4 main_v5 addf,
    binary main_v5 main_v3 main_v6 addf,
    nullary main_cst (constant S_ .f32 0x00000000#32),
    binary main_v6 main_cst main_v7 (fun x v => Host.reduceAdd x v reducesTo_S4x4096x1024_S4x4096_d2 h_S_),
    unary main_v7 main_v8 (broadcastInDim S4x4096x1 ![0, 1] bcast_S4x4096_S4x4096x1_0_1),
    nullary main_cst_0 (constant S_ .f32 0x44800000#32),
    unary main_cst_0 main_v9 (broadcastInDim S4x4096x1 ![] bcast_S_S4x4096x1),
    binary main_v8 main_v9 main_v10 Host.divf,
    unary main_v10 main_v11 (broadcastInDim S4x4096x1024 ![0, 1, 2] bcast_S4x4096x1_S4x4096x1024_0_1_2),
    binary main_v6 main_v11 main_v12 subf,
    binary main_v12 main_v12 main_v13 mulf,
    nullary main_cst_1 (constant S_ .f32 0x00000000#32),
    binary main_v13 main_cst_1 main_v14 (fun x v => Host.reduceAdd x v reducesTo_S4x4096x1024_S4x4096_d2 h_S_),
    unary main_v14 main_v15 (broadcastInDim S4x4096x1 ![0, 1] bcast_S4x4096_S4x4096x1_0_1),
    nullary main_cst_2 (constant S_ .f32 0x44800000#32),
    unary main_cst_2 main_v16 (broadcastInDim S4x4096x1 ![] bcast_S_S4x4096x1),
    binary main_v15 main_v16 main_v17 Host.divf,
    unary main_v10 main_v18 (broadcastInDim S4x4096x1024 ![0, 1, 2] bcast_S4x4096x1_S4x4096x1024_0_1_2),
    binary main_v6 main_v18 main_v19 subf,
    nullary main_cst_3 (constant S_ .f32 0x2B8CBCCC#32),
    unary main_cst_3 main_v20 (broadcastInDim S4x4096x1 ![] bcast_S_S4x4096x1),
    binary main_v17 main_v20 main_v21 addf,
    unary main_v21 main_v22 Host.sqrt,
    unary main_v22 main_v23 (broadcastInDim S4x4096x1024 ![0, 1, 2] bcast_S4x4096x1_S4x4096x1024_0_1_2),
    binary main_v19 main_v23 main_v24 Host.divf,
    unary main_arg4 main_v25 (broadcastInDim S1x1x1024 ![2] bcast_S1024_S1x1x1024_2),
    unary main_v25 main_v26 (broadcastInDim S4x4096x1024 ![0, 1, 2] bcast_S1x1x1024_S4x4096x1024_0_1_2),
    binary main_v24 main_v26 main_v27 mulf,
    unary main_arg5 main_v28 (broadcastInDim S1x1x1024 ![2] bcast_S1024_S1x1x1024_2),
    unary main_v28 main_v29 (broadcastInDim S4x4096x1024 ![0, 1, 2] bcast_S1x1x1024_S4x4096x1024_0_1_2),
    binary main_v27 main_v29 main_v30 addf ]

set_option maxRecDepth 4096 in
set_option maxHeartbeats 4000000 in
/-- @main is that straight line: the lookups' definitions unfolded at their calls and the sequencing reassociated. -/
theorem main_eq (c : Dev nD) : main (F := F) c = seq ops := by
  simp only [main, fn_take.body, fn_take_0.body, fn_where.body, fn_where_1.body, seq, bind_assoc, pure_bind]
  rfl

/-! ## The result as a function of the arguments, in stages -/

/-- `where(i < 0, i + 4096, i)` of the positions `arange(4096)`, as the [4096, 1] start indices of the row gather. -/
def posIdx : IVec S4096x1 32 :=
  broadcastInDim S4096x1 ![0] bcast_S4096_S4096x1_0
    (select (cmpi .slt (iotaInDim S4096 32 0) (broadcastInDim S4096 ![] bcast_S_S4096 (constantI S_ 32 0#32)))
      (addi (iotaInDim S4096 32 0) (broadcastInDim S4096 ![] bcast_S_S4096 (constantI S_ 32 4096#32))) (iotaInDim S4096 32 0))

/-- The in-range mask `0 ≤ i ≤ 4095` of [4096, 1] start indices, one bit per gathered row. -/
def posMask (ix : IVec S4096x1 32) : IVec S4096 1 :=
  (fun x v => Host.reduce IntOp.andi x v reducesTo_S4096x1_S4096_d1 h_S_)
    (andi (cmpi .sge ix (broadcastInDim S4096x1 ![] bcast_S_S4096x1 (constantI S_ 32 0#32)))
      (cmpi .sle ix (broadcastInDim S4096x1 ![0, 1] bcast_S1x1_S4096x1_0_1 (broadcastInDim S1x1 ![1] bcast_S1_S1x1_1 (constantI S1 32 4095#32)))))
    (constantI S_ 1 1#1)

/-- `jnp.take(position_table, arange(4096), axis=0)`: the rows gathered at the normalised positions, kept where in range
    (the fill elsewhere is the NaN word). -/
def posRows (a2 : FVec F S4096x1024 .f32) : FVec F S4096x1024 .f32 :=
  select (broadcastInDim S4096x1024 ![0] bcast_S4096_S4096x1024_0 (posMask posIdx))
    ((fun x i => Host.gather gather_S4096x1024_S4096x1_S4096x1024_1_0_n_n_0_1_11024 x i) a2 posIdx)
    (broadcastInDim S4096x1024 ![] bcast_S_S4096x1024 (constant (F := F) S_ .f32 0x7FC00000#32))

/-- `where(i < 0, i + 2, i)` of the token type ids, as the [4, 4096, 1] start indices of the row gather. -/
def typeIdx (a1 : IVec S4x4096 32) : IVec S4x4096x1 32 :=
  broadcastInDim S4x4096x1 ![0, 1] bcast_S4x4096_S4x4096x1_0_1
    (select (cmpi .slt a1 (broadcastInDim S4x4096 ![] bcast_S_S4x4096 (constantI S_ 32 0#32)))
      (addi a1 (broadcastInDim S4x4096 ![] bcast_S_S4x4096 (constantI S_ 32 2#32))) a1)

/-- The in-range mask `0 ≤ i ≤ 1` of [4, 4096, 1] start indices, one bit per token. -/
def typeMask (ix : IVec S4x4096x1 32) : IVec S4x4096 1 :=
  (fun x v => Host.reduce IntOp.andi x v reducesTo_S4x4096x1_S4x4096_d2 h_S_)
    (andi (cmpi .sge ix (broadcastInDim S4x4096x1 ![] bcast_S_S4x4096x1 (constantI S_ 32 0#32)))
      (cmpi .sle ix (broadcastInDim S4x4096x1 ![0, 1, 2] bcast_S1x1x1_S4x4096x1_0_1_2 (broadcastInDim S1x1x1 ![2] bcast_S1_S1x1x1_2 (constantI S1 32 1#32)))))
    (constantI S_ 1 1#1)

/-- `jnp.take(token_type_table, token_type_ids, axis=0)`: the table's rows gathered at the normalised ids, kept where in range. -/
def typeRows (a3 : FVec F S2x1024 .f32) (a1 : IVec S4x4096 32) : FVec F S4x4096x1024 .f32 :=
  select (broadcastInDim S4x4096x1024 ![0, 1] bcast_S4x4096_S4x4096x1024_0_1 (typeMask (typeIdx a1)))
    ((fun x i => Host.gather gather_S2x1024_S4x4096x1_S4x4096x1024_2_0_n_n_0_2_11024 x i) a3 (typeIdx a1))
    (broadcastInDim S4x4096x1024 ![] bcast_S_S4x4096x1024 (constant (F := F) S_ .f32 0x7FC00000#32))

/-- A per-row quantity `[4, 4096]` as a keepdims column `[4, 4096, 1]`, and a column spread over the 1024 entries. -/
def asColumn (v : FVec F S4x4096 .f32) : FVec F S4x4096x1 .f32 := broadcastInDim S4x4096x1 ![0, 1] bcast_S4x4096_S4x4096x1_0_1 v
def spread (v : FVec F S4x4096x1 .f32) : FVec F S4x4096x1024 .f32 := broadcastInDim S4x4096x1024 ![0, 1, 2] bcast_S4x4096x1_S4x4096x1024_0_1_2 v
/-- A scalar word as a column. -/
def columnOf (w : BitVec 32) : FVec F S4x4096x1 .f32 := broadcastInDim S4x4096x1 ![] bcast_S_S4x4096x1 (constant (F := F) S_ .f32 w)
/-- A length-1024 vector laid along the last axis of every row. -/
def alongRows (a : FVec F S1024 .f32) : FVec F S4x4096x1024 .f32 :=
  broadcastInDim S4x4096x1024 ![0, 1, 2] bcast_S1x1x1024_S4x4096x1024_0_1_2 (broadcastInDim S1x1x1024 ![2] bcast_S1024_S1x1x1024_2 a)

/-- The sum of each row, from a zero initial value. -/
def rowSum (x : FVec F S4x4096x1024 .f32) : FVec F S4x4096 .f32 :=
  Host.reduceAdd x (constant (F := F) S_ .f32 0x00000000#32) reducesTo_S4x4096x1024_S4x4096_d2 h_S_

/-- `jnp.mean(·, axis=-1, keepdims=True)`. -/
def rowMean (x : FVec F S4x4096x1024 .f32) : FVec F S4x4096x1 .f32 := Host.divf (asColumn (rowSum x)) (columnOf 0x44800000#32)

def centred (x : FVec F S4x4096x1024 .f32) : FVec F S4x4096x1024 .f32 := subf x (spread (rowMean x))

/-- The layer normalisation of the summed embeddings `x` with scale `a4` and shift `a5`. -/
def normTail (x : FVec F S4x4096x1024 .f32) (a4 a5 : FVec F S1024 .f32) : FVec F S4x4096x1024 .f32 :=
  addf (mulf (Host.divf (centred x)
      (spread (Host.sqrt (addf (rowMean (mulf (centred x) (centred x))) (columnOf 0x2B8CBCCC#32)))))
    (alongRows a4)) (alongRows a5)

/-- The summed embeddings: words + positions (one table for every batch entry) + type rows. -/
def embSum (a0 : FVec F S4x4096x1024 .f32) (a1 : IVec S4x4096 32) (a2 : FVec F S4096x1024 .f32) (a3 : FVec F S2x1024 .f32) :
    FVec F S4x4096x1024 .f32 :=
  addf (addf a0 (broadcastInDim S4x4096x1024 ![0, 1, 2] bcast_S1x4096x1024_S4x4096x1024_0_1_2
      (broadcastInDim S1x4096x1024 ![1, 2] bcast_S4096x1024_S1x4096x1024_1_2 (posRows a2)))) (typeRows a3 a1)

def refOut (a0 : FVec F S4x4096x1024 .f32) (a1 : IVec S4x4096 32) (a2 : FVec F S4096x1024 .f32) (a3 : FVec F S2x1024 .f32)
    (a4 a5 : FVec F S1024 .f32) : FVec F S4x4096x1024 .f32 :=
  normTail (embSum a0 a1 a2 a3) a4 a5

/-! ## The fold of the operations at the result and at the arguments -/

set_option maxRecDepth 200000 in
set_option maxHeartbeats 4000000 in
/-- The fold at the result buffer is `refOut` of the valuation at the arguments: the fold unrolled, each operation's
    result read where it was written and every other buffer left as it was; what remains is the operations' composed
    term, which `refOut` spells in stages. -/
theorem out_eq (V : Valuation τ sig (Elt F)) :
    after ops V (main_v30 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- Every weakly fair execution of @main terminates with every buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- … so the result is `refOut` of the arguments' launch contents, and the arguments end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
        = refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v30).trans (out_eq _), (h c main_arg0).trans (arg0_eq _), (h c main_arg1).trans (arg1_eq _),
      (h c main_arg2).trans (arg2_eq _), (h c main_arg3).trans (arg3_eq _), (h c main_arg4).trans (arg4_eq _), (h c main_arg5).trans (arg5_eq _)⟩)
    (run_main m ρ)

end Cert.ReferenceIdeal.RefRun

end
-- ==== Proof.RefRead.lean ====
/-
  The reference's result, entry by entry.

  `refOut` at `(b, s, k)` is the reference's normalisation (`EmbNorm.normR`) of the row
  `x k' = words[b, s, k'] + position[s, k'] + type_row[ids[b, s], k']`.  The position lookup gathers row `s` at index `s`
  (the iota is in range, so the in-range select keeps the gathered row); the type lookup, for an id in `{0, 1}`, gathers
  row `id`.  The sums over the last axis are the host's reductions from a zero initial value.
-/
import proofs.«101087_g44375602103182_cont_8to1_c_21_20_alg».proof.Proof.RefRun
import proofs.«101087_g44375602103182_cont_8to1_c_21_20_alg».proof.Proof.Spec
import Idealize.ShloMosaic.PureOps.Ideal.Laws
import Idealize.ShloMosaic.Lib.ValueIdx
import Idealize.ShloMosaic.Lib.Pipeline.Value
import Idealize.ShloMosaic.Lib.Affine
import Idealize.ShloMosaic.Lib.DynamicIndex

noncomputable section

namespace Cert.ReferenceIdeal.RefRead

open Cert.ReferenceIdeal Cert.ReferenceIdeal.Gen Cert.ReferenceIdeal.RefRun Idealize.ShloMosaic Idealize.ShloMosaic.ValueIdx Cert.EmbNorm

/-! ## The reference's broadcasts, read at an index -/

section Layout
variable {α : Type}

/-- A keepdims column [4, 4096, 1] spread over the 1024 entries reads the column. -/
theorem spread_idx (v : S4x4096x1.Idx → α) (h : S4x4096x1.BroadcastsInDim S4x4096x1024 ![0, 1, 2]) (b : Fin 4) (s : Fin 4096) (k : Fin 1024) :
    broadcastInDim S4x4096x1024 ![0, 1, 2] h v (ix3 b s k) = v (ix3 b s 0) :=
  broadcastInDim_apply ![0, 1, 2] h v (ix3 b s k) (ix3 b s 0) (fun a => match a with
    | ⟨0, _⟩ => by show b.val = (if (4 : Nat) = 1 then 0 else b.val); rw [if_neg (by decide)]
    | ⟨1, _⟩ => by show s.val = (if (4096 : Nat) = 1 then 0 else s.val); rw [if_neg (by decide)]
    | ⟨2, _⟩ => by show 0 = (if (1 : Nat) = 1 then 0 else k.val); rw [if_pos rfl])

/-- Per-token values [4, 4096] as a keepdims column. -/
theorem column_idx (v : S4x4096.Idx → α) (h : S4x4096.BroadcastsInDim S4x4096x1 ![0, 1]) (b : Fin 4) (s : Fin 4096) :
    broadcastInDim S4x4096x1 ![0, 1] h v (ix3 b s 0) = v (ix2 b s) :=
  broadcastInDim_apply ![0, 1] h v (ix3 b s 0) (ix2 b s) (fun a => match a with
    | ⟨0, _⟩ => by show b.val = (if (4 : Nat) = 1 then 0 else b.val); rw [if_neg (by decide)]
    | ⟨1, _⟩ => by show s.val = (if (4096 : Nat) = 1 then 0 else s.val); rw [if_neg (by decide)])

/-- Per-token values [4, 4096] spread over the 1024 entries. -/
theorem tokens_idx (v : S4x4096.Idx → α) (h : S4x4096.BroadcastsInDim S4x4096x1024 ![0, 1]) (b : Fin 4) (s : Fin 4096) (k : Fin 1024) :
    broadcastInDim S4x4096x1024 ![0, 1] h v (ix3 b s k) = v (ix2 b s) :=
  broadcastInDim_apply ![0, 1] h v (ix3 b s k) (ix2 b s) (fun a => match a with
    | ⟨0, _⟩ => by show b.val = (if (4 : Nat) = 1 then 0 else b.val); rw [if_neg (by decide)]
    | ⟨1, _⟩ => by show s.val = (if (4096 : Nat) = 1 then 0 else s.val); rw [if_neg (by decide)])

/-- A scalar broadcast anywhere reads the scalar. -/
theorem scalar_idx {t : Shape} (v : S_.Idx → α) (h : S_.BroadcastsInDim t ![]) (j : t.Idx) :
    broadcastInDim t ![] h v j = v ix0 :=
  broadcastInDim_apply ![] h v j ix0 (fun a => a.elim0)

/-- A length-1024 vector laid along the last axis of every row. -/
theorem alongRows_idx (a : S1024.Idx → α) (h : S1024.BroadcastsInDim S1x1x1024 ![2]) (h' : S1x1x1024.BroadcastsInDim S4x4096x1024 ![0, 1, 2])
    (b : Fin 4) (s : Fin 4096) (k : Fin 1024) :
    broadcastInDim S4x4096x1024 ![0, 1, 2] h' (broadcastInDim S1x1x1024 ![2] h a) (ix3 b s k) = a (ix1 k) := by
  refine (broadcastInDim_apply ![0, 1, 2] h' _ (ix3 b s k) (ix3 0 0 k) (fun a => match a with
    | ⟨0, _⟩ => by show 0 = (if (1 : Nat) = 1 then 0 else b.val); rw [if_pos rfl]
    | ⟨1, _⟩ => by show 0 = (if (1 : Nat) = 1 then 0 else s.val); rw [if_pos rfl]
    | ⟨2, _⟩ => by show k.val = (if (1024 : Nat) = 1 then 0 else k.val); rw [if_neg (by decide)])).trans ?_
  exact broadcastInDim_apply ![2] h a (ix3 0 0 k) (ix1 k) (fun a => match a with
    | ⟨0, _⟩ => by show k.val = (if (1024 : Nat) = 1 then 0 else k.val); rw [if_neg (by decide)])

/-- The [4096, 1024] position rows given a leading unit axis and copied to every batch entry. -/
theorem everyBatch_idx (p : S4096x1024.Idx → α) (h : S4096x1024.BroadcastsInDim S1x4096x1024 ![1, 2])
    (h' : S1x4096x1024.BroadcastsInDim S4x4096x1024 ![0, 1, 2]) (b : Fin 4) (s : Fin 4096) (k : Fin 1024) :
    broadcastInDim S4x4096x1024 ![0, 1, 2] h' (broadcastInDim S1x4096x1024 ![1, 2] h p) (ix3 b s k) = p (ix2 s k) := by
  refine (broadcastInDim_apply ![0, 1, 2] h' _ (ix3 b s k) (ix3 0 s k) (fun a => match a with
    | ⟨0, _⟩ => by show 0 = (if (1 : Nat) = 1 then 0 else b.val); rw [if_pos rfl]
    | ⟨1, _⟩ => by show s.val = (if (4096 : Nat) = 1 then 0 else s.val); rw [if_neg (by decide)]
    | ⟨2, _⟩ => by show k.val = (if (1024 : Nat) = 1 then 0 else k.val); rw [if_neg (by decide)])).trans ?_
  exact broadcastInDim_apply ![1, 2] h p (ix3 0 s k) (ix2 s k) (fun a => match a with
    | ⟨0, _⟩ => by show s.val = (if (4096 : Nat) = 1 then 0 else s.val); rw [if_neg (by decide)]
    | ⟨1, _⟩ => by show k.val = (if (1024 : Nat) = 1 then 0 else k.val); rw [if_neg (by decide)])

end Layout

/-! ## The normalisation tail -/

/-- The host's row sum from the zero word is the sum over the row. -/
theorem rowSum_apply (x : FVec Ideal S4x4096x1024 .f32) (b : Fin 4) (s : Fin 4096) :
    rowSum x (ix2 b s) = ∑ k : Fin 1024, x (ix3 b s k) := by
  unfold rowSum Host.reduceAdd
  rw [Ideal.hostReduceAdd_def]
  refine (Ideal.hostReduceAdd_single reducesTo_S4x4096x1024_S4x4096_d2 (by decide : S4x4096x1024.Reduces [2] S4x4096) x _ (ix2 b s)).trans ?_
  rw [show (constant (F := Ideal) S_ .f32 0x00000000#32) (Shape.Idx.first h_S_) = 0 from Ideal.ofBits_zero_f32, zero_add]
  refine Finset.sum_congr rfl fun k _ => congrArg x ?_
  funext a
  match a with
  | ⟨0, _⟩ => rfl
  | ⟨1, _⟩ => rfl
  | ⟨2, _⟩ => rfl

theorem rowMean_apply (x : FVec Ideal S4x4096x1024 .f32) (b : Fin 4) (s : Fin 4096) :
    rowMean x (ix3 b s 0) = Ideal.div (∑ k : Fin 1024, x (ix3 b s k)) cN := by
  unfold rowMean asColumn columnOf
  show Ideal.div (broadcastInDim S4x4096x1 ![0, 1] bcast_S4x4096_S4x4096x1_0_1 (rowSum x) (ix3 b s 0))
    (broadcastInDim S4x4096x1 ![] bcast_S_S4x4096x1 (constant (F := Ideal) S_ .f32 0x44800000#32) (ix3 b s 0)) = _
  rw [column_idx, scalar_idx, rowSum_apply]
  rfl

theorem centred_apply (x : FVec Ideal S4x4096x1024 .f32) (b : Fin 4) (s : Fin 4096) (k : Fin 1024) :
    centred x (ix3 b s k) = x (ix3 b s k) - Ideal.div (∑ j : Fin 1024, x (ix3 b s j)) cN := by
  unfold centred spread
  rw [subf_apply, spread_idx, rowMean_apply]

theorem normTail_apply (x : FVec Ideal S4x4096x1024 .f32) (a4 a5 : FVec Ideal S1024 .f32) (b : Fin 4) (s : Fin 4096) (k : Fin 1024) :
    normTail x a4 a5 (ix3 b s k) = normR (fun j => x (ix3 b s j)) (a4 (ix1 k)) (a5 (ix1 k)) k := by
  unfold normTail alongRows spread columnOf
  show Ideal.div (centred x (ix3 b s k))
      (broadcastInDim S4x4096x1024 ![0, 1, 2] bcast_S4x4096x1_S4x4096x1024_0_1_2
        (Host.sqrt (addf (rowMean (mulf (centred x) (centred x)))
          (broadcastInDim S4x4096x1 ![] bcast_S_S4x4096x1 (constant (F := Ideal) S_ .f32 0x2B8CBCCC#32)))) (ix3 b s k))
      * broadcastInDim S4x4096x1024 ![0, 1, 2] bcast_S1x1x1024_S4x4096x1024_0_1_2 (broadcastInDim S1x1x1024 ![2] bcast_S1024_S1x1x1024_2 a4) (ix3 b s k)
      + broadcastInDim S4x4096x1024 ![0, 1, 2] bcast_S1x1x1024_S4x4096x1024_0_1_2 (broadcastInDim S1x1x1024 ![2] bcast_S1024_S1x1x1024_2 a5) (ix3 b s k) = _
  rw [alongRows_idx, alongRows_idx, spread_idx, centred_apply]
  show Ideal.div _ (Ideal.sqrt (rowMean (mulf (centred x) (centred x)) (ix3 b s 0)
      + broadcastInDim S4x4096x1 ![] bcast_S_S4x4096x1 (constant (F := Ideal) S_ .f32 0x2B8CBCCC#32) (ix3 b s 0))) * _ + _ = _
  rw [rowMean_apply, scalar_idx]
  have hsq : ∀ j : Fin 1024, mulf (centred x) (centred x) (ix3 b s j)
      = (x (ix3 b s j) - Ideal.div (∑ i : Fin 1024, x (ix3 b s i)) cN) * (x (ix3 b s j) - Ideal.div (∑ i : Fin 1024, x (ix3 b s i)) cN) := by
    intro j; rw [mulf_apply, centred_apply]
  rw [Finset.sum_congr rfl fun j _ => hsq j]
  rfl

/-! ## The two row gathers -/

section Gather
variable {α : Type}

/-- The row gather out of the [4096, 1024] table at [4096, 1] start indices: result row `s` is the table's row at start
    index `ix[s, 0]` read signed and clamped into `[0, 4095]`. -/
theorem gatherPos_apply (x : S4096x1024.Idx → α) (ix : IVec S4096x1 32) (s : Fin 4096) (k : Fin 1024) :
    Host.gather gather_S4096x1024_S4096x1_S4096x1024_1_0_n_n_0_1_11024 x ix (ix2 s k)
      = x (ix2 (⟨min (ix (ix2 s 0)).toInt.toNat 4095, by omega⟩ : Fin 4096) k) := by
  unfold Host.gather
  refine congrArg x ?_
  funext a
  refine Fin.ext ?_
  match a with
  | ⟨0, _⟩ =>
    show gather_S4096x1024_S4096x1_S4096x1024_1_0_n_n_0_1_11024.start (ix2 s k) ix 0
      + gather_S4096x1024_S4096x1_S4096x1024_1_0_n_n_0_1_11024.batchCoord (ix2 s k) 0
      + gather_S4096x1024_S4096x1_S4096x1024_1_0_n_n_0_1_11024.offCoord (ix2 s k) 0 = min (ix (ix2 s 0)).toInt.toNat 4095
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S4096x1024_S4096x1_S4096x1024_1_0_n_n_0_1_11024.startIndexMap from List.mem_singleton.mpr rfl)]
    have hsi : gather_S4096x1024_S4096x1_S4096x1024_1_0_n_n_0_1_11024.siIdx (ix2 s k)
        ⟨List.idxOf (0 : Fin 2) gather_S4096x1024_S4096x1_S4096x1024_1_0_n_n_0_1_11024.startIndexMap,
          List.idxOf_lt_length_iff.2 (List.mem_singleton.mpr rfl)⟩ = ix2 s 0 := by
      funext b; refine Fin.ext ?_
      match b with
      | ⟨0, _⟩ => rfl
      | ⟨1, _⟩ => rfl
    rw [hsi]
    rfl
  | ⟨1, _⟩ =>
    show gather_S4096x1024_S4096x1_S4096x1024_1_0_n_n_0_1_11024.start (ix2 s k) ix 1
      + gather_S4096x1024_S4096x1_S4096x1024_1_0_n_n_0_1_11024.batchCoord (ix2 s k) 1
      + gather_S4096x1024_S4096x1_S4096x1024_1_0_n_n_0_1_11024.offCoord (ix2 s k) 1 = k.val
    have e1 : gather_S4096x1024_S4096x1_S4096x1024_1_0_n_n_0_1_11024.start (ix2 s k) ix 1 = 0 := rfl
    have e2 : gather_S4096x1024_S4096x1_S4096x1024_1_0_n_n_0_1_11024.batchCoord (ix2 s k) 1 = 0 := rfl
    have e3 : gather_S4096x1024_S4096x1_S4096x1024_1_0_n_n_0_1_11024.offCoord (ix2 s k) 1 = k.val := rfl
    rw [e1, e2, e3]; omega

/-- The row gather out of the [2, 1024] table at [4, 4096, 1] start indices: the table's row at start index
    `ix[b, s, 0]` read signed and clamped into `[0, 1]`. -/
theorem gatherType_apply (x : S2x1024.Idx → α) (ix : IVec S4x4096x1 32) (b : Fin 4) (s : Fin 4096) (k : Fin 1024) :
    Host.gather gather_S2x1024_S4x4096x1_S4x4096x1024_2_0_n_n_0_2_11024 x ix (ix3 b s k)
      = x (ix2 (⟨min (ix (ix3 b s 0)).toInt.toNat 1, by omega⟩ : Fin 2) k) := by
  unfold Host.gather
  refine congrArg x ?_
  funext a
  refine Fin.ext ?_
  match a with
  | ⟨0, _⟩ =>
    show gather_S2x1024_S4x4096x1_S4x4096x1024_2_0_n_n_0_2_11024.start (ix3 b s k) ix 0
      + gather_S2x1024_S4x4096x1_S4x4096x1024_2_0_n_n_0_2_11024.batchCoord (ix3 b s k) 0
      + gather_S2x1024_S4x4096x1_S4x4096x1024_2_0_n_n_0_2_11024.offCoord (ix3 b s k) 0 = min (ix (ix3 b s 0)).toInt.toNat 1
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2x1024_S4x4096x1_S4x4096x1024_2_0_n_n_0_2_11024.startIndexMap from List.mem_singleton.mpr rfl)]
    have hsi : gather_S2x1024_S4x4096x1_S4x4096x1024_2_0_n_n_0_2_11024.siIdx (ix3 b s k)
        ⟨List.idxOf (0 : Fin 2) gather_S2x1024_S4x4096x1_S4x4096x1024_2_0_n_n_0_2_11024.startIndexMap,
          List.idxOf_lt_length_iff.2 (List.mem_singleton.mpr rfl)⟩ = ix3 b s 0 := by
      funext c; refine Fin.ext ?_
      match c with
      | ⟨0, _⟩ => rfl
      | ⟨1, _⟩ => rfl
      | ⟨2, _⟩ => rfl
    rw [hsi]
    rfl
  | ⟨1, _⟩ =>
    show gather_S2x1024_S4x4096x1_S4x4096x1024_2_0_n_n_0_2_11024.start (ix3 b s k) ix 1
      + gather_S2x1024_S4x4096x1_S4x4096x1024_2_0_n_n_0_2_11024.batchCoord (ix3 b s k) 1
      + gather_S2x1024_S4x4096x1_S4x4096x1024_2_0_n_n_0_2_11024.offCoord (ix3 b s k) 1 = k.val
    have e1 : gather_S2x1024_S4x4096x1_S4x4096x1024_2_0_n_n_0_2_11024.start (ix3 b s k) ix 1 = 0 := rfl
    have e2 : gather_S2x1024_S4x4096x1_S4x4096x1024_2_0_n_n_0_2_11024.batchCoord (ix3 b s k) 1 = 0 := rfl
    have e3 : gather_S2x1024_S4x4096x1_S4x4096x1024_2_0_n_n_0_2_11024.offCoord (ix3 b s k) 1 = k.val := rfl
    rw [e1, e2, e3]; omega

end Gather

/-! ## The in-range masks -/

/-- An `all` over a set of bits that are all `1`, from the bit `1`, is `1`. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1) (hall : ∀ i, x i = 1#1) :
    Host.reduce IntOp.andi x init h hu j = 1#1 := by
  rw [Host.reduce_eq_foldl, hinit]
  generalize (((List.finRange s.numel).map s.rowMajor.symm).filter fun i => h.drop i = j) = l
  induction l with
  | nil => rfl
  | cons a l ih =>
    rw [List.foldl_cons, hall a]
    exact ih

theorem toInt_4095 : (4095#32 : BitVec 32).toInt = 4095 := by decide
theorem toInt_4096 : (4096#32 : BitVec 32).toInt = 4096 := by decide
theorem toInt_zero32 : (0#32 : BitVec 32).toInt = 0 := by decide
theorem toInt_one32 : (1#32 : BitVec 32).toInt = 1 := by decide

/-- The normalised position at row `s` is the number `s`: an iota entry is not negative. -/
theorem posIdx_apply (s : Fin 4096) : posIdx (ix2 s 0) = BitVec.ofNat 32 s.val := by
  unfold posIdx
  rw [broadcastInDim_apply ![0] bcast_S4096_S4096x1_0 _ (ix2 s 0) (ix1 s) (fun a => match a with
    | ⟨0, _⟩ => by show s.val = (if (4096 : Nat) = 1 then 0 else s.val); rw [if_neg (by decide)])]
  rw [select_apply]
  show Scalar.select (IntOp.cmpi .slt (BitVec.ofNat 32 s.val) 0#32) _ (BitVec.ofNat 32 s.val) = _
  have hs : s.val < 2 ^ 31 := by have := s.isLt; omega
  have hc : IntOp.cmpi .slt (BitVec.ofNat 32 s.val) 0#32 = 0#1 := eq_zero_of_ne_one (fun h => by
    rw [IntOp.cmpi_slt, toInt_ofNat_of_lt hs, toInt_zero32] at h; omega)
  rw [hc, select_zero]

/-- Any [4096, 1] index is `(s, 0)`. -/
theorem eq_col (i : S4096x1.Idx) : i = ix2 (i 0) 0 := by
  funext a
  match a with
  | ⟨0, _⟩ => rfl
  | ⟨1, _⟩ =>
    apply Fin.ext
    have h := (i ⟨1, by decide⟩).isLt
    have hs : S4096x1.size ⟨1, by decide⟩ = 1 := by decide
    show (i ⟨1, _⟩).val = 0
    omega

/-- Every normalised position is in range, so the position mask is `1` at every row. -/
theorem posMask_one (s : Fin 4096) : posMask posIdx (ix1 s) = 1#1 := by
  unfold posMask
  refine reduce_andi_of_all _ _ _ _ _ rfl (fun i => ?_)
  rw [eq_col i]
  show IntOp.andi (IntOp.cmpi .sge (posIdx (ix2 (i 0) 0)) 0#32) (IntOp.cmpi .sle (posIdx (ix2 (i 0) 0)) 4095#32) = 1#1
  have hs : (i 0).val < 2 ^ 31 := by have : (i 0).val < 4096 := (i 0).isLt; omega
  have hlt : (i 0).val < 4096 := (i 0).isLt
  rw [posIdx_apply (i 0), IntOp.andi_eq_one, IntOp.cmpi_sge, IntOp.cmpi_sle, toInt_ofNat_of_lt hs, toInt_zero32, toInt_4095]
  omega

/-- The position lookup is the identity: row `s` of the table. -/
theorem posRows_apply (a2 : FVec Ideal S4096x1024 .f32) (s : Fin 4096) (k : Fin 1024) : posRows a2 (ix2 s k) = a2 (ix2 s k) := by
  unfold posRows
  rw [select_apply, broadcastInDim_apply ![0] bcast_S4096_S4096x1024_0 _ (ix2 s k) (ix1 s) (fun a => match a with
    | ⟨0, _⟩ => by show s.val = (if (4096 : Nat) = 1 then 0 else s.val); rw [if_neg (by decide)]), posMask_one, select_one]
  show Host.gather gather_S4096x1024_S4096x1_S4096x1024_1_0_n_n_0_1_11024 a2 posIdx (ix2 s k) = _
  rw [gatherPos_apply]
  refine congrArg a2 ?_
  have hs : s.val < 2 ^ 31 := by have := s.isLt; omega
  have e : (⟨min (posIdx (ix2 s 0)).toInt.toNat 4095, by omega⟩ : Fin 4096) = s := by
    apply Fin.ext
    show min (posIdx (ix2 s 0)).toInt.toNat 4095 = s.val
    rw [posIdx_apply, toInt_ofNat_of_lt hs]
    have := s.isLt
    omega
  rw [e]

/-- An id in `{0, 1}` is its own normalisation. -/
theorem typeIdx_apply (a1 : IVec S4x4096 32) (b : Fin 4) (s : Fin 4096) (h : a1 (ix2 b s) = 0#32 ∨ a1 (ix2 b s) = 1#32) :
    typeIdx a1 (ix3 b s 0) = a1 (ix2 b s) := by
  unfold typeIdx
  rw [column_idx, select_apply]
  show Scalar.select (IntOp.cmpi .slt (a1 (ix2 b s)) 0#32) _ (a1 (ix2 b s)) = _
  have hc : IntOp.cmpi .slt (a1 (ix2 b s)) 0#32 = 0#1 := by
    rcases h with h | h <;> rw [h] <;> decide
  rw [hc, select_zero]

/-- Any [4, 4096, 1] index is `(b, s, 0)`. -/
theorem eq_col3 (i : S4x4096x1.Idx) : i = ix3 (i 0) (i 1) 0 := by
  funext a
  match a with
  | ⟨0, _⟩ => rfl
  | ⟨1, _⟩ => rfl
  | ⟨2, _⟩ =>
    apply Fin.ext
    have h := (i ⟨2, by decide⟩).isLt
    have hs : S4x4096x1.size ⟨2, by decide⟩ = 1 := by decide
    show (i ⟨2, _⟩).val = 0
    omega

/-- With every id in `{0, 1}` the type mask is `1` at every token. -/
theorem typeMask_one (a1 : IVec S4x4096 32) (hid : ∀ j : S4x4096.Idx, a1 j = 0#32 ∨ a1 j = 1#32) (b : Fin 4) (s : Fin 4096) :
    typeMask (typeIdx a1) (ix2 b s) = 1#1 := by
  unfold typeMask
  refine reduce_andi_of_all _ _ _ _ _ rfl (fun i => ?_)
  rw [eq_col3 i]
  show IntOp.andi (IntOp.cmpi .sge (typeIdx a1 (ix3 (i 0) (i 1) 0)) 0#32) (IntOp.cmpi .sle (typeIdx a1 (ix3 (i 0) (i 1) 0)) 1#32) = 1#1
  rw [typeIdx_apply a1 (i 0) (i 1) (hid _)]
  rcases hid (ix2 (i 0) (i 1)) with h | h <;> rw [h] <;> decide

/-- The type lookup at an id in `{0, 1}`: row 0 or row 1 of the table. -/
theorem typeRows_apply (a3 : FVec Ideal S2x1024 .f32) (a1 : IVec S4x4096 32) (hid : ∀ j : S4x4096.Idx, a1 j = 0#32 ∨ a1 j = 1#32)
    (b : Fin 4) (s : Fin 4096) (k : Fin 1024) :
    typeRows a3 a1 (ix3 b s k) = if a1 (ix2 b s) = 0#32 then a3 (ix2 0 k) else a3 (ix2 1 k) := by
  unfold typeRows
  rw [select_apply, tokens_idx, typeMask_one a1 hid, select_one]
  show Host.gather gather_S2x1024_S4x4096x1_S4x4096x1024_2_0_n_n_0_2_11024 a3 (typeIdx a1) (ix3 b s k) = _
  rw [gatherType_apply]
  rcases hid (ix2 b s) with h | h
  · rw [if_pos h]
    refine congrArg a3 (congrArg (fun r => ix2 r k) (Fin.ext ?_))
    show min (typeIdx a1 (ix3 b s 0)).toInt.toNat 1 = 0
    rw [typeIdx_apply a1 b s (Or.inl h), h]; decide
  · rw [if_neg (by rw [h]; decide)]
    refine congrArg a3 (congrArg (fun r => ix2 r k) (Fin.ext ?_))
    show min (typeIdx a1 (ix3 b s 0)).toInt.toNat 1 = 1
    rw [typeIdx_apply a1 b s (Or.inr h), h]; decide

/-! ## The result -/

theorem embSum_apply (a0 : FVec Ideal S4x4096x1024 .f32) (a1 : IVec S4x4096 32) (a2 : FVec Ideal S4096x1024 .f32)
    (a3 : FVec Ideal S2x1024 .f32) (hid : ∀ j : S4x4096.Idx, a1 j = 0#32 ∨ a1 j = 1#32) (b : Fin 4) (s : Fin 4096) (k : Fin 1024) :
    embSum a0 a1 a2 a3 (ix3 b s k) = rowR a0 a1 a2 a3 b s k := by
  unfold embSum rowR
  rw [addf_apply, addf_apply, everyBatch_idx, posRows_apply, typeRows_apply a3 a1 hid]

/-- THE REFERENCE'S RESULT is `outR` of its arguments, the ids in `{0, 1}`. -/
theorem refOut_eq (a0 : FVec Ideal S4x4096x1024 .f32) (a1 : IVec S4x4096 32) (a2 : FVec Ideal S4096x1024 .f32)
    (a3 : FVec Ideal S2x1024 .f32) (a4 a5 : FVec Ideal S1024 .f32) (hid : ∀ j : S4x4096.Idx, a1 j = 0#32 ∨ a1 j = 1#32) :
    refOut a0 a1 a2 a3 a4 a5 = outR a0 a1 a2 a3 a4 a5 := by
  funext i
  obtain ⟨b, s, k, rfl⟩ : ∃ (b : Fin 4) (s : Fin 4096) (k : Fin 1024), i = ix3 b s k := ⟨i 0, i 1, i 2, eq_ix3 i⟩
  unfold refOut
  rw [normTail_apply]
  show normR _ _ _ _ = normR (rowR a0 a1 a2 a3 b s) (a4 (ix1 k)) (a5 (ix1 k)) k
  have hrow : (fun j => embSum a0 a1 a2 a3 (ix3 b s j)) = rowR a0 a1 a2 a3 b s :=
    funext fun j => embSum_apply a0 a1 a2 a3 hid b s j
  rw [hrow]

end Cert.ReferenceIdeal.RefRead

end
-- ==== Proof.PreDecode.lean ====
/-
  What the precondition says, decoded.

  The precondition is a conjunction of seven `all`s: every entry of each of the five float arrays is finite
  (`|x| < +∞`), and every token type id is `≥ 0` and `< 2`.  Two of its consequences are used: every entry of the type table
  is a real number, and every id is the word `0` or the word `1`.
-/
import proofs.«101087_g44375602103182_cont_8to1_c_21_20_alg».proof.Proof.Gen.Pre_finite_inputs
import Idealize.ShloMosaic.PureOps.Ideal.Laws
import Idealize.ShloMosaic.Lib.ReduceAll
import Idealize.ShloMosaic.Lib.Affine
import Idealize.ShloMosaic.Lib.ValueIdx

noncomputable section

namespace Cert.Pre_finite_inputs.Decode

open Cert.Pre_finite_inputs Cert.Pre_finite_inputs.Gen Idealize.ShloMosaic Idealize.ShloMosaic.ValueIdx

instance : Subsingleton S_.Idx := ⟨fun a b => funext fun d => d.elim0⟩

/-- The strict comparison on the extended reals answers `1` exactly when it holds. -/
theorem cmp_olt_eq_one (x y : EReal) : Ideal.cmp .olt x y = 1#1 ↔ x < y := by
  show BitVec.ofBool (decide (x < y)) = 1#1 ↔ x < y
  by_cases h : x < y <;> simp [h]

theorem decode (a0 : FVec Ideal S4x4096x1024 .f32) (a1 : IVec S4x4096 32) (a2 : FVec Ideal S4096x1024 .f32)
    (a3 : FVec Ideal S2x1024 .f32) (a4 a5 : FVec Ideal S1024 .f32)
    (h : Cert.Pre_finite_inputs.fn (F := Ideal) a0 a1 a2 a3 a4 a5 = fun _ => 1#1) :
    (∀ j : S2x1024.Idx, ∃ r : ℝ, a3 j = (r : EReal)) ∧ (∀ j : S4x4096.Idx, a1 j = 0#32 ∨ a1 j = 1#32) := by
  have e := congrFun h ix0
  dsimp only [Cert.Pre_finite_inputs.fn, Cert.Pre_finite_inputs.fn_part1] at e
  simp only [andi, IntOp.andi_eq_one] at e
  obtain ⟨⟨⟨⟨⟨⟨-, -⟩, h3⟩, -⟩, -⟩, hge⟩, hlt⟩ := e
  have hinf : Ideal.ofBits .f32 0x7F800000#32 = ⊤ := by simp [Ideal.ofBits, Ideal.ieee]
  constructor
  · intro j
    have hj := Host.reduce_andi_all _ _ _ _ _ h3 j
    have hj' : Ideal.cmp .olt (max (a3 j) (-(a3 j))) (Ideal.ofBits .f32 0x7F800000#32) = 1#1 := hj
    rw [hinf] at hj'
    have hlt' : max (a3 j) (-(a3 j)) < ⊤ := (cmp_olt_eq_one _ _).mp hj'
    generalize a3 j = x at hlt' ⊢
    induction x using EReal.rec with
    | bot => simp at hlt'
    | coe r => exact ⟨r, rfl⟩
    | top => simp at hlt'
  · intro j
    have h1 : IntOp.cmpi .sge (a1 j) 0#32 = 1#1 := Host.reduce_andi_all _ _ _ _ _ hge j
    have h2 : IntOp.cmpi .slt (a1 j) 2#32 = 1#1 := Host.reduce_andi_all _ _ _ _ _ hlt j
    rw [IntOp.cmpi_sge] at h1
    rw [IntOp.cmpi_slt] at h2
    have z0 : (0#32 : BitVec 32).toInt = 0 := by decide
    have z2 : (2#32 : BitVec 32).toInt = 2 := by decide
    rw [z0] at h1
    rw [z2] at h2
    have hcase : (a1 j).toInt = 0 ∨ (a1 j).toInt = 1 := by omega
    rcases hcase with h | h
    · left; exact BitVec.eq_of_toInt_eq (by rw [h, z0])
    · right; exact BitVec.eq_of_toInt_eq (by rw [h]; decide)

end Cert.Pre_finite_inputs.Decode

end
-- ==== Proof.lean ====
/-
  The certificate of the embedding layer normalisation: `LayerNorm(words + position_table[arange] + token_type_table[ids])`
  as a Pallas kernel over eight row blocks, against the jnp reference.

  The three frames: the kernel's two (word level and idealised) are the generated frame runs; the reference's is its run
  read back (RefRun.lean) with the result dropped.  The idealisation rewrote nothing, so `preserves` is trivial.

  `algebraic`: at the extended reals the kernel's result array is `EmbNorm.outK` of the argument arrays (KernelBlock.lean: one
  block, entry by entry; KernelArray.lean: the eight blocks are one function's and cover the array) and the reference's is
  `EmbNorm.outR` (RefRead.lean), given every id in `{0, 1}`.  The two are one function (Spec.lean): the products with `2⁻¹⁰`
  are the quotients by 1024 and the product with the reciprocal root is the quotient by the root over the positive radicand
  `σ² + ε`, on every extended real; the kernel's `t₀ + id · (t₁ - t₀)` is the table's row `id` for `id ∈ {0, 1}` when `t₀` is
  finite.  The precondition gives both facts (PreDecode.lean): the type table is finite and every id is `0` or `1`.
-/
import proofs.«101087_g44375602103182_cont_8to1_c_21_20_alg».proof.Defs
import proofs.«101087_g44375602103182_cont_8to1_c_21_20_alg».proof.Proof.Gen.Kernel
import proofs.«101087_g44375602103182_cont_8to1_c_21_20_alg».proof.Proof.Gen.Kernel.Skeleton
import proofs.«101087_g44375602103182_cont_8to1_c_21_20_alg».proof.Proof.Gen.Kernel.Launch
import proofs.«101087_g44375602103182_cont_8to1_c_21_20_alg».proof.Proof.Gen.Kernel.Points
import proofs.«101087_g44375602103182_cont_8to1_c_21_20_alg».proof.Proof.Gen.Kernel.Frame
import proofs.«101087_g44375602103182_cont_8to1_c_21_20_alg».proof.Proof.Gen.KernelIdeal
import proofs.«101087_g44375602103182_cont_8to1_c_21_20_alg».proof.Proof.Gen.KernelIdeal.Skeleton
import proofs.«101087_g44375602103182_cont_8to1_c_21_20_alg».proof.Proof.Gen.KernelIdeal.Launch
import proofs.«101087_g44375602103182_cont_8to1_c_21_20_alg».proof.Proof.Gen.KernelIdeal.Points
import proofs.«101087_g44375602103182_cont_8to1_c_21_20_alg».proof.Proof.Gen.KernelIdeal.Frame
import proofs.«101087_g44375602103182_cont_8to1_c_21_20_alg».proof.Proof.ValuePatched
import proofs.«101087_g44375602103182_cont_8to1_c_21_20_alg».proof.Proof.Gen.ReferenceIdeal
import proofs.«101087_g44375602103182_cont_8to1_c_21_20_alg».proof.Proof.Gen.Pre_finite_inputs
import proofs.«101087_g44375602103182_cont_8to1_c_21_20_alg».proof.Proof.Spec
import proofs.«101087_g44375602103182_cont_8to1_c_21_20_alg».proof.Proof.KernelBlock
import proofs.«101087_g44375602103182_cont_8to1_c_21_20_alg».proof.Proof.KernelArray
import proofs.«101087_g44375602103182_cont_8to1_c_21_20_alg».proof.Proof.RefRun
import proofs.«101087_g44375602103182_cont_8to1_c_21_20_alg».proof.Proof.RefRead
import proofs.«101087_g44375602103182_cont_8to1_c_21_20_alg».proof.Proof.PreDecode
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with the result array at one function of the (agreeing) arguments: the kernel at `outK`, the reference
    at `outR`, and `outK = outR` where the type table is finite and the ids are `0` or `1`, as the precondition says. -/
theorem algebraic : Cert.algebraic_KernelIdeal_ReferenceIdeal := by
  intro m ρ m' ρ' hpre hagree
  have hdec := fun c => Cert.Pre_finite_inputs.Decode.decode _ _ _ _ _ _ (hpre c)
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]
  rw [Cert.ReferenceIdeal.RefRead.refOut_eq _ _ _ _ _ _ (hdec c).2]
  exact (Cert.EmbNorm.outK_eq_outR _ _ _ _ _ _ (hdec c).2 (hdec c).1).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
